-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S1600000x1 : S_.BroadcastsInDim S1600000x1 (![] : Fin 0 → Fin S1600000x1.rank)
  reducesTo_S1600000x1_S_d0_1 : S1600000x1.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S1600000 .f32) (main_arg3 : FVec F S1600000x1 .f32) (main_arg4 : FVec F S1x64 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000x1 .f32 := Host.absf main_arg3
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S8000x1 : Shape := ⟨2, ![8000, 1]⟩
abbrev S8000x64 : Shape := ⟨2, ![8000, 64]⟩
abbrev S8000 : Shape := ⟨1, ![8000]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 46
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x1, .f32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1600000x1, .f32⟩
  | .hbm, ⟨21, _⟩ => ⟨S1x64, .f32⟩
  | .hbm, ⟨22, _⟩ => ⟨S1x64, .f32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S8000x1, .f32⟩
  | .local _ .vmem, ⟨1, _⟩ => ⟨S8000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x1, .f32⟩
  | .local _ .vmem, ⟨7, _⟩ => ⟨S8000x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  shapeCasts_S64_S1x64 : S64.ShapeCasts S1x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S8000x64_S8000 : S8000x64.Reduces [1] S8000
  shapeCasts_S8000_S8000x1 : S8000.ShapeCasts S8000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S8000x64_S64x64_S8000x64_1_0_0_1_n_n_wf : DotDims.WF S8000x64 S64x64 S8000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1600000x1.size a
  hwx0_0 : ∀ i : grid0.Coords, EltTy.bits .f32 = 32 ∨ (Rect.block (s := S1600000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S1600000x1.size a
  hwx0_5 : ∀ i : grid0.Coords, EltTy.bits .f32 = 32 ∨ (Rect.block (s := S1600000x1) S8000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x64 : Shape := ⟨2, ![1600000, 64]⟩
abbrev S1600000x128 : Shape := ⟨2, ![1600000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S1600000x1, .f32⟩
  | .hbm, ⟨4, _⟩ => ⟨S1x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S1600000, .f32⟩
  | .hbm, ⟨23, _⟩ => ⟨S_, .f32⟩
  | .hbm, ⟨24, _⟩ => ⟨S1600000, .f32⟩
  | .hbm, ⟨25, _⟩ => ⟨S1600000, .f32⟩
  | .hbm, ⟨26, _⟩ => ⟨S1600000x1, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S1600000x64, .f32⟩
  | .hbm, ⟨32, _⟩ => ⟨S1600000x64, .f32⟩
  | .hbm, ⟨33, _⟩ => ⟨S1x64, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S1600000, .f32⟩
  | .hbm, ⟨38, _⟩ => ⟨S1600000, .f32⟩
  | .hbm, ⟨39, _⟩ => ⟨S_, .f32⟩
  | .hbm, ⟨40, _⟩ => ⟨S1600000, .f32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S1600000, .f32⟩
  | .hbm, ⟨45, _⟩ => ⟨S1600000, .f32⟩
  | .hbm, ⟨46, _⟩ => ⟨S_, .f32⟩
  | .hbm, ⟨47, _⟩ => ⟨S1600000, .f32⟩
  | .hbm, ⟨48, _⟩ => ⟨S1600000, .f32⟩
  | .hbm, ⟨49, _⟩ => ⟨S_, .f32⟩
  | .hbm, ⟨50, _⟩ => ⟨S1600000, .f32⟩
  | .hbm, ⟨51, _⟩ => ⟨S1600000, .i1⟩
  | .hbm, ⟨52, _⟩ => ⟨S_, .f32⟩
  | .hbm, ⟨53, _⟩ => ⟨S_, .f32⟩
  | .hbm, ⟨54, _⟩ => ⟨S1600000, .f32⟩
  | .hbm, ⟨55, _⟩ => ⟨S1600000, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S1600000, .f32⟩
  | .hbm, ⟨61, _⟩ => ⟨S1600000x1, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .i1⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_c : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  reducesTo_S1600000x64_S1600000_d1 : S1600000x64.ReducesTo [1] S1600000
  h_S_ : 0 < S_.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  dot_S1600000x1_S1x64_S1600000x64_1_0_0_1_n_n_wf : DotDims.WF S1600000x1 S1x64 S1600000x64 [1] [0] [0] [1] [] []
  dot_S1600000x64_S64x64_S1600000x64_1_0_0_1_n_n_wf : DotDims.WF S1600000x64 S64x64 S1600000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run, read at every buffer.

  The program is four stretches: host operations, the filter kernel over 200 tiles of edges, host operations (the row
  gather, the scaling by the filter sums and the scatter-add into the nodes), and the interaction kernel over 20
  tiles of nodes. Every weakly fair execution terminates without a fault, and afterwards every unscoped buffer of a
  core holds the contents the fold through the four stretches gives it; read at the result buffer and at the
  sixteen argument buffers this is the run the value claim needs: the result holds what the second kernel's
  write-backs leave, the arguments hold what they were launched with.
-/
import proofs.«179561_j47974784696341_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run the result buffer holds the contents the fold leaves in it and every argument is as launched. -/
theorem run_result : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValue

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«179561_j47974784696341_2_alg».proof.Proof.LibMatmulRows
import proofs.«179561_j47974784696341_2_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibDenseTile.lean ====
/-
  A dense layer with a rectifier, and two arrays laid side by side, computed on a tile of rows.

  A kernel that walks the rows of an [M, K] array X in tiles computes, on the tile whose rows are rows o, o + 1, … of
  X, the product of the tile with a [K, N] array W into a zero accumulator, adds the one row B to every row, takes
  the maximum with zero and changes the float format. On the extended reals the change of format is the identity,
  and what the kernel leaves at row p, column c of the tile is the whole-array function
  `rowsBiasRelu (rowsProd X W) B` at row o + p, column c: a row of the result depends on that row of X only.

  `joinCols P Q` lays an [M, A] array and an [M, B] array side by side: column a < A of the result is column a of P,
  column A + b is column b of Q. A tile of rows of P beside the same tile of rows of Q is that tile of `joinCols P Q`.
-/
import proofs.«179561_j47974784696341_2_alg».proof.Proof.LibTileRows
import proofs.«179561_j47974784696341_2_alg».proof.Proof.LibPlainDot

noncomputable section

namespace Cert.LibDenseTile

open Idealize.ShloMosaic Idealize.ShloMosaic.ValueIdx Cert.LibTileRows Cert.LibPlainDot

/-- The tile's dense layer with rectifier is the tile of the whole-array one. -/
theorem tile_denseRelu {Mb M K N : Nat} {φ₁ φ₂ ψ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩) (hψ : ψ.bits < FTy.f32.bits)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (truncf ψ (maximumf (addf (matmul d none l r (constant ⟨2, ![Mb, N]⟩ .f32 0x00000000#32)) (broadcastTo ⟨2, ![Mb, N]⟩ b hb))
        (broadcast ⟨2, ![Mb, N]⟩ (Scalar.ofBits .f32 0x00000000#32))) hψ : FVec Ideal ⟨2, ![Mb, N]⟩ ψ) y
      = rowsBiasRelu (rowsProd X W) B i := by
  show max (matmul d none l r (constant ⟨2, ![Mb, N]⟩ .f32 0x00000000#32) y + broadcastTo ⟨2, ![Mb, N]⟩ b hb y)
      (Ideal.ofBits .f32 0x00000000#32) = max (rowsBias (rowsProd X W) B i) (Ideal.ofBits .f32 0x00000000#32)
  rw [tile_rowsBias _ b hb (rowsProd X W) B o
    (fun x k e0 e1 => tile_rowsProd d hd.rank hd.size hd.lhs0 hd.lhs1 hd.rhs0 hd.rhs1 none l r X W o hX hW x k e0 e1)
    hB y i hi0 hi1]

/-- The tile's plain product plus a bias row is the tile of the whole-array one. -/
theorem tile_dense {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (addf (matmul d none l r (constant ⟨2, ![Mb, N]⟩ .f32 0x00000000#32)) (broadcastTo ⟨2, ![Mb, N]⟩ b hb) : FVec Ideal ⟨2, ![Mb, N]⟩ .f32) y
      = rowsBias (rowsProd X W) B i :=
  tile_rowsBias _ b hb (rowsProd X W) B o
    (fun x k e0 e1 => tile_rowsProd d hd.rank hd.size hd.lhs0 hd.lhs1 hd.rhs0 hd.rhs1 none l r X W o hX hW x k e0 e1)
    hB y i hi0 hi1

/-- Two arrays with the same rows laid side by side (columns past both are zero; there are none when C = A + B). -/
def joinCols {M A B C : Nat} (P : (⟨2, ![M, A]⟩ : Shape).Idx → EReal) (Q : (⟨2, ![M, B]⟩ : Shape).Idx → EReal) :
    (⟨2, ![M, C]⟩ : Shape).Idx → EReal :=
  fun i => if h : (i 1).val < A then P (ix2 (i 0) ⟨(i 1).val, h⟩)
    else if h' : (i 1).val - A < B then Q (ix2 (i 0) ⟨(i 1).val - A, h'⟩) else 0

/-- A tile of rows of P beside the same tile of rows of Q is that tile of `joinCols P Q`. -/
theorem tile_joinCols {Mb M A B C : Nat} (p : (⟨2, ![Mb, A]⟩ : Shape).Idx → EReal) (q : (⟨2, ![Mb, B]⟩ : Shape).Idx → EReal)
    (hc : Shape.Concatenates [⟨2, ![Mb, A]⟩, ⟨2, ![Mb, B]⟩] ⟨2, ![Mb, C]⟩ 1) (hC : C = A + B)
    (P : (⟨2, ![M, A]⟩ : Shape).Idx → EReal) (Q : (⟨2, ![M, B]⟩ : Shape).Idx → EReal) (o : Nat)
    (hP : ∀ (x : (⟨2, ![Mb, A]⟩ : Shape).Idx) (k : (⟨2, ![M, A]⟩ : Shape).Idx),
      (k 0).val = o + (x 0).val → (k 1).val = (x 1).val → p x = P k)
    (hQ : ∀ (x : (⟨2, ![Mb, B]⟩ : Shape).Idx) (k : (⟨2, ![M, B]⟩ : Shape).Idx),
      (k 0).val = o + (x 0).val → (k 1).val = (x 1).val → q x = Q k)
    (y : (⟨2, ![Mb, C]⟩ : Shape).Idx) (i : (⟨2, ![M, C]⟩ : Shape).Idx)
    (hi0 : (i 0).val = o + (y 0).val) (hi1 : (i 1).val = (y 1).val) :
    concatenate ⟨2, ![Mb, C]⟩ 1 [⟨⟨2, ![Mb, A]⟩, p⟩, ⟨⟨2, ![Mb, B]⟩, q⟩] hc y = joinCols P Q i := by
  have hy1 : (y 1).val < C := idx2_lt1 y
  unfold joinCols
  by_cases h : (y 1).val < A
  · have h' : (i 1).val < A := by omega
    rw [dif_pos h', concatenate_pair_apply_left (1 : Fin 2) p q hc y rfl (ix2 (y 0) ⟨(y 1).val, h⟩)
      (fun b => by match b with | ⟨0, _⟩ => rfl | ⟨1, _⟩ => rfl)]
    exact hP _ _ hi0 hi1
  · have h' : ¬ (i 1).val < A := by omega
    have h2 : (y 1).val - A < B := by omega
    have h2' : (i 1).val - A < B := by omega
    rw [dif_neg h', dif_pos h2', concatenate_pair_apply_right (1 : Fin 2) p q hc y rfl rfl (ix2 (y 0) ⟨(y 1).val - A, h2⟩)
      (fun b hb => by match b with | ⟨0, _⟩ => rfl | ⟨1, _⟩ => exact absurd rfl hb)
      (by show (y 1).val - A + A = (y 1).val; omega)]
    exact hQ _ _ hi0 (by show (i 1).val - A = (y 1).val - A; omega)

end Cert.LibDenseTile

end
-- ==== Proof.LibRowOfVector.lean ====
/-
  A vector laid out as a one-row array, two spellings.

  A vector of N entries reshaped to a [1, N] array and the same vector broadcast into a [1, N] array along a new
  leading axis (the vector's one axis sent to axis 1) are the same array: entry (0, j) is the vector's entry j.
-/
import Idealize.ShloMosaic.Lib.Pipeline.Value

noncomputable section

namespace Cert.LibRowOfVector

open Idealize.ShloMosaic

/-- The reshape of a vector to one row is its broadcast along a new leading axis. -/
theorem reshape_eq_broadcast {α : Type} {N : Nat} (b : (⟨1, ![N]⟩ : Shape).Idx → α)
    (hs : (⟨1, ![N]⟩ : Shape).ShapeCasts ⟨2, ![1, N]⟩)
    (hb : (⟨1, ![N]⟩ : Shape).BroadcastsInDim ⟨2, ![1, N]⟩ ![1]) :
    shapeCast ⟨2, ![1, N]⟩ b hs = broadcastInDim ⟨2, ![1, N]⟩ ![1] hb b := by
  funext j
  rw [shapeCast_addUnit_apply ![N] b hs j, broadcastInDim_apply ![1] hb b j (fun a => j a.succ) ?_]
  intro a
  match a with
  | ⟨0, _⟩ =>
    show (j 1).val = if N = 1 then 0 else (j 1).val
    split
    · have h1 : (j 1).val < N := (j 1).isLt
      omega
    · rfl

end Cert.LibRowOfVector

end
-- ==== Proof.LibDenseTanh.lean ====
/-
  A dense layer followed by the hyperbolic tangent, computed on a tile of rows, and its host spelling.

  `dense X W B` is the [M, N] array whose entry (r, c) is the sum over a < K of X(r, a) · W(a, c) plus B(0, c): the
  product of an [M, K] array and a [K, N] array with the one row B added to every row. `denseTanh X W B` applies the
  hyperbolic tangent of the extended reals (−1 at −∞, 1 at +∞) to every entry of it.

  A kernel that walks the rows of X in tiles computes, on the tile whose rows are rows o, o + 1, … of X, the product of
  the tile with W into a zero accumulator, adds B to every row and (for `denseTanh`) takes the tangent entry by entry:
  what it leaves at row p, column c of the tile is the whole-array function at row o + p, column c, because a row of
  the result depends on that row of X only. A host program computes the same arrays with one plain matrix product, the
  bias vector laid out as a row (by a reshape, which is the broadcast along a new leading axis), that row broadcast
  over the rows and added, and the host's tangent. Both sides are the same sums and the same scalar operations entry
  by entry: no law of the extended reals is used.
-/
import proofs.«179561_j47974784696341_2_alg».proof.Proof.LibDenseTile
import proofs.«179561_j47974784696341_2_alg».proof.Proof.LibRowOfVector

noncomputable section

namespace Cert.LibDenseTanh

open Idealize.ShloMosaic Idealize.ShloMosaic.ValueIdx Cert.LibTileRows Cert.LibPlainDot Cert.LibDenseTile

/-- The product plus the bias row, entry by entry. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  rowsBias (rowsProd X W) B

/-- The hyperbolic tangent of every entry of `dense X W B`. -/
def denseTanh {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => Ideal.tanh (dense X W B i)

/-- The tile's product plus the bias row is the tile of `dense` whose rows start at row `o`. -/
theorem tile_dense' {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (addf (matmul d none l r (constant ⟨2, ![Mb, N]⟩ .f32 0x00000000#32)) (broadcastTo ⟨2, ![Mb, N]⟩ b hb) : FVec Ideal ⟨2, ![Mb, N]⟩ .f32) y
      = dense X W B i :=
  tile_dense d hd l r b hb X W B o hX hW hB y i hi0 hi1

/-- The tile's product plus the bias row, then the tangent, is the tile of `denseTanh` whose rows start at row `o`. -/
theorem tile_denseTanh {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (tanh (addf (matmul d none l r (constant ⟨2, ![Mb, N]⟩ .f32 0x00000000#32)) (broadcastTo ⟨2, ![Mb, N]⟩ b hb)) : FVec Ideal ⟨2, ![Mb, N]⟩ .f32) y
      = denseTanh X W B i :=
  congrArg Ideal.tanh (tile_dense d hd l r b hb X W B o hX hW hB y i hi0 hi1)

/-- The host's dense layer: one plain product plus the bias vector, reshaped to a row, broadcast over the rows. -/
theorem dense_eq_host {M K N : Nat} (d : DotDims ⟨2, ![M, K]⟩ ⟨2, ![K, N]⟩ ⟨2, ![M, N]⟩) (hd : Plain d)
    (hs : (⟨1, ![N]⟩ : Shape).ShapeCasts ⟨2, ![1, N]⟩)
    (hb1 : (⟨1, ![N]⟩ : Shape).BroadcastsInDim ⟨2, ![1, N]⟩ ![1])
    (hb : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32) :
    dense X W (shapeCast ⟨2, ![1, N]⟩ b hs)
      = addf (Host.dotGeneral (F := Ideal) d none X W)
          (broadcastInDim ⟨2, ![M, N]⟩ ![0, 1] hb (broadcastInDim ⟨2, ![1, N]⟩ ![1] hb1 b)) := by
  unfold dense
  rw [Cert.LibRowOfVector.reshape_eq_broadcast b hs hb1,
    rowsBias_eq_add (M := M) (N := N) (rowsProd X W) (broadcastInDim ⟨2, ![1, N]⟩ ![1] hb1 b) hb,
    rowsProd_eq_dot d hd.rank hd.size hd.lhs0 hd.lhs1 hd.rhs0 hd.rhs1 X W]

/-- The host's dense layer followed by the host's tangent. -/
theorem denseTanh_eq_host {M K N : Nat} (d : DotDims ⟨2, ![M, K]⟩ ⟨2, ![K, N]⟩ ⟨2, ![M, N]⟩) (hd : Plain d)
    (hs : (⟨1, ![N]⟩ : Shape).ShapeCasts ⟨2, ![1, N]⟩)
    (hb1 : (⟨1, ![N]⟩ : Shape).BroadcastsInDim ⟨2, ![1, N]⟩ ![1])
    (hb : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32) :
    denseTanh X W (shapeCast ⟨2, ![1, N]⟩ b hs)
      = Host.tanh (addf (Host.dotGeneral (F := Ideal) d none X W)
          (broadcastInDim ⟨2, ![M, N]⟩ ![0, 1] hb (broadcastInDim ⟨2, ![1, N]⟩ ![1] hb1 b))) := by
  funext i
  show Ideal.tanh (dense X W (shapeCast ⟨2, ![1, N]⟩ b hs) i) = Ideal.tanh _
  rw [dense_eq_host d hd hs hb1 hb X W b]

end Cert.LibDenseTanh

end
-- ==== Proof.LibScaledRows.lean ====
/-
  Rows scaled by a column, and three dense layers as functions of whole arrays.

  `rowsScale A D` multiplies row `r` of an [M, N] array `A` by the entry `r` of an [M, 1] column `D`. A tile of rows of `A`
  times the matching tile of `D` broadcast along the rows is the tile of `rowsScale A D`; likewise a tile of rows with a bias
  row added and the maximum with the float word zero taken is the tile of `rowsBiasRelu A B`. On top of the entrywise
  product `rowsProd` these give three layers whose row `r` depends on row `r` of the row-wise arguments only:
    `projScaled X W D   = (X · W)(r, c) · D(r)`,
    `denseScaled A B W D = (max(A + B, 0) · W)(r, c) · D(r)`,
    `denseBias A B W C   = (max(A + B, 0) · W)(r, c) + C(c)`.
-/
import proofs.«179561_j47974784696341_2_alg».proof.Proof.LibTileRows

noncomputable section

namespace Cert.LibScaledRows

open Idealize.ShloMosaic Idealize.ShloMosaic.ValueIdx Cert.LibTileRows

/-! ## A column broadcast along rows, and rows scaled by a column -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of `A` multiplied by the entry `r` of the column `D`. -/
def rowsScale {M N : Nat} (A : (⟨2, ![M, N]⟩ : Shape).Idx → EReal) (D : (⟨2, ![M, 1]⟩ : Shape).Idx → EReal) :
    (⟨2, ![M, N]⟩ : Shape).Idx → EReal :=
  fun i => A i * D (ix2 (i 0) (0 : Fin 1))

/-- A tile of rows times the matching tile of the column broadcast along the rows: the tile of `rowsScale A D` whose rows
    start at row `o`. -/
theorem tile_rowsScale {Mb M N : Nat} (a : (⟨2, ![Mb, N]⟩ : Shape).Idx → EReal) (d : (⟨2, ![Mb, 1]⟩ : Shape).Idx → EReal)
    (hb : (⟨2, ![Mb, 1]⟩ : Shape).Broadcasts ⟨2, ![Mb, N]⟩)
    (A : (⟨2, ![M, N]⟩ : Shape).Idx → EReal) (D : (⟨2, ![M, 1]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hD : ∀ (x : (⟨2, ![Mb, 1]⟩ : Shape).Idx) (k : (⟨2, ![M, 1]⟩ : Shape).Idx), (k 0).val = o + (x 0).val → d x = D k)
    (y : (⟨2, ![Mb, N]⟩ : Shape).Idx) (i : (⟨2, ![M, N]⟩ : Shape).Idx)
    (hi0 : (i 0).val = o + (y 0).val) (hi1 : (i 1).val = (y 1).val) :
    a y * broadcastTo ⟨2, ![Mb, N]⟩ d hb y = rowsScale A D i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  rw [broadcastTo_a1_ab_apply d hb p q, hA (ix2 p q) (ix2 u v) hi0 hi1, hD (ix2 p (0 : Fin 1)) (ix2 u (0 : Fin 1)) hi0]
  rfl

/-- A tile of rows with the bias row added and the maximum with zero taken: the tile of `rowsBiasRelu A B`. -/
theorem tile_rowsBiasRelu {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    max (a y + broadcastTo ⟨2, ![Mb, N]⟩ b hb y) (Ideal.ofBits .f32 0x00000000#32) = rowsBiasRelu A B i := by
  unfold rowsBiasRelu
  rw [tile_rowsBias a b hb A B o hA hB y i hi0 hi1]

/-! ## The three layers -/

/-- The first layer: every row projected by `W`, row `r` scaled by `D(r)`. -/
def projScaled {M K N : Nat} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  rowsScale (rowsProd X W) D

/-- The second layer: bias row, maximum with zero, projection by `W`, row `r` scaled by `D(r)`. -/
def denseScaled {M K N : Nat} (A : (⟨2, ![M, K]⟩ : Shape).Idx → EReal) (B : (⟨2, ![1, K]⟩ : Shape).Idx → EReal)
    (W : (⟨2, ![K, N]⟩ : Shape).Idx → EReal) (D : (⟨2, ![M, 1]⟩ : Shape).Idx → EReal) : (⟨2, ![M, N]⟩ : Shape).Idx → EReal :=
  rowsScale (rowsProd (rowsBiasRelu A B) W) D

/-- The third layer: bias row, maximum with zero, projection by `W`, a second bias row. -/
def denseBias {M K N : Nat} (A : (⟨2, ![M, K]⟩ : Shape).Idx → EReal) (B : (⟨2, ![1, K]⟩ : Shape).Idx → EReal)
    (W : (⟨2, ![K, N]⟩ : Shape).Idx → EReal) (C : (⟨2, ![1, N]⟩ : Shape).Idx → EReal) : (⟨2, ![M, N]⟩ : Shape).Idx → EReal :=
  rowsBias (rowsProd (rowsBiasRelu A B) W) C

end Cert.LibScaledRows

end
-- ==== Proof.LibFilterConv.lean ====
/-
  The two dense stages of a continuous-filter graph convolution as whole-array functions on the extended reals.

  The filter stage gives every edge e one number. From the edge's length d(e): the scaled length s = d/4 − 1; a hidden
  row h(e, a) = tanh(s · W1(0, a) + B1(0, a)); the filter row f(e, c) = Σ_a h(e, a) · W2(a, c) + B2(0, c); the cosine
  cutoff κ(e) = (cos(d · ω) + 1)/2 where d ≤ 8 and 0 elsewhere (ω the float word of π/8); and the edge's number is
  Σ_c f(e, c) · κ(e). A row of the result depends on that edge's length only.

  The interaction stage sends the [M, K] array of aggregated messages through a dense layer, the soft rectifier
  max(x, 0) + log(1 + exp(−|x|)), a second dense layer, and the normalisation γ · (x − μ) · (v + ε)^(−1/2) + β with one
  γ, β, μ, v per column. A row of the result depends on that row of the aggregated messages only.
-/
import proofs.«179561_j47974784696341_2_alg».proof.Proof.LibDenseTanh
import proofs.«179561_j47974784696341_2_alg».proof.Proof.LibScaledRows

noncomputable section

namespace Cert.FilterConv

open Idealize.ShloMosaic Idealize.ShloMosaic.ValueIdx Cert.LibTileRows Cert.LibDenseTanh

/-- The scaled edge length d/4 − 1. -/
def scaleDist (x : EReal) : EReal :=
  FloatOps.subf (F := Ideal) (φ := .f32) (FloatOps.mulf (F := Ideal) (φ := .f32) x (FloatOps.ofBits (F := Ideal) .f32 0x3E800000#32))
    (FloatOps.ofBits (F := Ideal) .f32 0x3F800000#32)

/-- The cosine cutoff of an edge length: (cos(d · ω) + 1)/2 where d ≤ 8, else 0; ω is the float word of π/8. -/
def cutoff (x : EReal) : EReal :=
  Scalar.select (FloatOps.cmpf (F := Ideal) (φ := .f32) .ole x (FloatOps.ofBits (F := Ideal) .f32 0x41000000#32))
    (FloatOps.mulf (F := Ideal) (φ := .f32) (FloatOps.ofBits (F := Ideal) .f32 0x3F000000#32)
      (FloatOps.addf (F := Ideal) (φ := .f32)
        (FloatOps.cos (F := Ideal) (φ := .f32) (FloatOps.mulf (F := Ideal) (φ := .f32) x (FloatOps.ofBits (F := Ideal) .f32 0x3EC90FDB#32)))
        (FloatOps.ofBits (F := Ideal) .f32 0x3F800000#32)))
    (FloatOps.ofBits (F := Ideal) .f32 0x00000000#32)

/-- The soft rectifier max(x, 0) + log(1 + exp(0 − |x − 0|)), with the branch a float program takes at a value that is
    not equal to itself (no extended real is). -/
def softplus (x : EReal) : EReal :=
  Scalar.select
    (FloatOps.cmpf (F := Ideal) (φ := .f32) .one
      (FloatOps.subf (F := Ideal) (φ := .f32) x (FloatOps.ofBits (F := Ideal) .f32 0x00000000#32))
      (FloatOps.subf (F := Ideal) (φ := .f32) x (FloatOps.ofBits (F := Ideal) .f32 0x00000000#32)))
    (FloatOps.addf (F := Ideal) (φ := .f32) x (FloatOps.ofBits (F := Ideal) .f32 0x00000000#32))
    (FloatOps.addf (F := Ideal) (φ := .f32)
      (FloatOps.maximumf (F := Ideal) (φ := .f32) x (FloatOps.ofBits (F := Ideal) .f32 0x00000000#32))
      (FloatOps.log1p (F := Ideal) (φ := .f32) (FloatOps.exp (F := Ideal) (φ := .f32)
        (FloatOps.subf (F := Ideal) (φ := .f32) (FloatOps.ofBits (F := Ideal) .f32 0x00000000#32)
          (FloatOps.absf (F := Ideal) (φ := .f32)
            (FloatOps.subf (F := Ideal) (φ := .f32) x (FloatOps.ofBits (F := Ideal) .f32 0x00000000#32)))))))

/-- The normalisation γ · (x − μ) · (v + ε)^(−1/2) + β, ε the float word of 1/1000. -/
def normalise (x g b mu v : EReal) : EReal :=
  FloatOps.addf (F := Ideal) (φ := .f32)
    (FloatOps.mulf (F := Ideal) (φ := .f32)
      (FloatOps.mulf (F := Ideal) (φ := .f32) g (FloatOps.subf (F := Ideal) (φ := .f32) x mu))
      (FloatOps.rsqrt (F := Ideal) (φ := .f32) (FloatOps.addf (F := Ideal) (φ := .f32) v (FloatOps.ofBits (F := Ideal) .f32 0x3A83126F#32))))
    b

variable {M K N : Nat}

/-- The hidden row of the filter stage. -/
def hidden (EW : (⟨2, ![M, 1]⟩ : Shape).Idx → EReal) (W1 B1 : (⟨2, ![1, K]⟩ : Shape).Idx → EReal) :
    (⟨2, ![M, K]⟩ : Shape).Idx → EReal :=
  fun i => FloatOps.tanh (F := Ideal) (φ := .f32) (FloatOps.addf (F := Ideal) (φ := .f32)
    (FloatOps.mulf (F := Ideal) (φ := .f32) (scaleDist (EW (ix2 (i 0) (0 : Fin 1)))) (W1 (ix2 (0 : Fin 1) (i 1))))
    (B1 (ix2 (0 : Fin 1) (i 1))))

/-- The filter row times the cutoff, edge by edge. -/
def filtered (EW : (⟨2, ![M, 1]⟩ : Shape).Idx → EReal) (W1 B1 : (⟨2, ![1, K]⟩ : Shape).Idx → EReal)
    (W2 : (⟨2, ![K, N]⟩ : Shape).Idx → EReal) (B2 : (⟨2, ![1, N]⟩ : Shape).Idx → EReal) :
    (⟨2, ![M, N]⟩ : Shape).Idx → EReal :=
  fun i => dense (hidden EW W1 B1) W2 B2 i * cutoff (EW (ix2 (i 0) (0 : Fin 1)))

/-- The filter stage: one number per edge. -/
def filterSum (EW : (⟨2, ![M, 1]⟩ : Shape).Idx → EReal) (W1 B1 : (⟨2, ![1, K]⟩ : Shape).Idx → EReal)
    (W2 : (⟨2, ![K, N]⟩ : Shape).Idx → EReal) (B2 : (⟨2, ![1, N]⟩ : Shape).Idx → EReal) :
    (⟨2, ![M, 1]⟩ : Shape).Idx → EReal :=
  fun i => ∑ c : Fin N, filtered EW W1 B1 W2 B2 (ix2 (i 0) c)

/-- The soft rectifier of the first dense layer. -/
def softDense (A : (⟨2, ![M, K]⟩ : Shape).Idx → EReal) (W1 : (⟨2, ![K, N]⟩ : Shape).Idx → EReal)
    (B1 : (⟨2, ![1, N]⟩ : Shape).Idx → EReal) : (⟨2, ![M, N]⟩ : Shape).Idx → EReal :=
  fun i => softplus (dense A W1 B1 i)

/-- The interaction stage. -/
def interact (A : (⟨2, ![M, K]⟩ : Shape).Idx → EReal) (W1 : (⟨2, ![K, N]⟩ : Shape).Idx → EReal)
    (B1 : (⟨2, ![1, N]⟩ : Shape).Idx → EReal) (W2 : (⟨2, ![N, N]⟩ : Shape).Idx → EReal)
    (B2 G Bt Mu V : (⟨2, ![1, N]⟩ : Shape).Idx → EReal) : (⟨2, ![M, N]⟩ : Shape).Idx → EReal :=
  fun i => normalise (dense (softDense A W1 B1) W2 B2 i) (G (ix2 (0 : Fin 1) (i 1))) (Bt (ix2 (0 : Fin 1) (i 1)))
    (Mu (ix2 (0 : Fin 1) (i 1))) (V (ix2 (0 : Fin 1) (i 1)))

end Cert.FilterConv

end
-- ==== Proof.LibMaskedRowMax.lean ====
/-
  The mean, over the selected entries of a row, of each entry's maximum over a trailing axis.

  For an array X of extents [R, K, L] and weights W of extents [R, K] the function is, at row r,
      ( Σ_k (max_l X[r, k, l]) · W[r, k] ) / ( Σ_k W[r, k] )
  on the extended reals: the maximum is the fold of max from -∞ over the L entries, the two sums are
  finite sums over the K entries, and the quotient is the ideal division (with its conventions at a
  zero divisor). With W the 0/1 image of a boolean mask this is the masked mean of the maxima.

  Proved here, all at the ideal values:
  * the two casts between a vector [R] and a column [R, 1], read at an index;
  * a vector reduction <maximumf> over the last axis of a rank-3 array, and the host's reduce with a
    maximum body from the -∞ word, are both the row maximum rowMax;
  * a vector reduction <add> over the last axis of a rank-2 array is the finite sum of the row, and the
    host's reduce with an add body from the zero word is the same sum;
  * the weight of a 32-bit mask word (wordWeight: the test "word ≠ 0" widened and converted as a signed
    integer) is, for a bit widened to 32 bits, the bit converted as an unsigned integer;
  * the function reads row r of X and of W only, so a tile of rows of the result is the result of
    the tile of rows (maskedMean_congr).
-/
import Idealize.ShloMosaic.PureOps.Ideal.Laws
import Idealize.ShloMosaic.Lib.ValueIdx
import Idealize.ShloMosaic.Lib.Pipeline.Value

noncomputable section

namespace Cert.MaskedRowMax

open Idealize.ShloMosaic Idealize.ShloMosaic.ValueIdx

variable {α : Type} {R K L : ℕ}

/-! ## A vector and a column -/

/-- An [R] vector cast to an [R, 1] column reads, at (r, u), the vector at r. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [R, 1] column cast to an [R] vector reads, at r, the column at (r, 0). -/
theorem shapeCast_a1_a_apply (x : (⟨2, ![R, 1]⟩ : Shape).Idx → α) (h : (⟨2, ![R, 1]⟩ : Shape).ShapeCasts ⟨1, ![R]⟩)
    (r : Fin R) : shapeCast ⟨1, ![R]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-! ## The function -/

/-- The largest of the L entries X[r, k, ·], from -∞. -/
def rowMax (X : (⟨3, ![R, K, L]⟩ : Shape).Idx → EReal) (r : Fin R) (k : Fin K) : EReal :=
  (Finset.univ : Finset (Fin L)).fold max (Ideal.ofBits .f32 0xFF800000#32) (fun l => X (ix3 r k l))

/-- The weighted mean of the row maxima of row r: Σ_k rowMax · W over Σ_k W. -/
def maskedMean (X : (⟨3, ![R, K, L]⟩ : Shape).Idx → EReal) (W : (⟨2, ![R, K]⟩ : Shape).Idx → EReal) (r : Fin R) : EReal :=
  Ideal.div (∑ k : Fin K, rowMax X r k * W (ix2 r k)) (∑ k : Fin K, W (ix2 r k))

/-- Row r of the result depends on row r of the two arguments only: arrays that agree there, at rows
    r' and r of possibly different heights, give the same value. -/
theorem maskedMean_congr {R' : ℕ} (X' : (⟨3, ![R', K, L]⟩ : Shape).Idx → EReal) (W' : (⟨2, ![R', K]⟩ : Shape).Idx → EReal)
    (X : (⟨3, ![R, K, L]⟩ : Shape).Idx → EReal) (W : (⟨2, ![R, K]⟩ : Shape).Idx → EReal) (r' : Fin R') (r : Fin R)
    (hX : ∀ k l, X' (ix3 r' k l) = X (ix3 r k l)) (hW : ∀ k, W' (ix2 r' k) = W (ix2 r k)) :
    maskedMean X' W' r' = maskedMean X W r := by
  unfold maskedMean rowMax
  simp only [hX, hW]

/-- The function of arguments given in other shapes of the same sizes: X reshaped to [R, K, L], the boolean
    mask reshaped to [R, K] and read as 0 / 1, the result a vector of R entries. -/
def maskedMeanOf {s0 s1 : Shape} (x0 : s0.Idx → EReal) (x1 : s1.Idx → BitVec 1)
    (h0 : s0.ShapeCasts ⟨3, ![R, K, L]⟩) (h1 : s1.ShapeCasts ⟨2, ![R, K]⟩) : (⟨1, ![R]⟩ : Shape).Idx → EReal :=
  fun j => maskedMean (shapeCast ⟨3, ![R, K, L]⟩ x0 h0)
    (fun j' => FloatOps.uitofp (F := Ideal) .f32 (shapeCast ⟨2, ![R, K]⟩ x1 h1 j')) (j 0)

/-! ## The reductions -/

/-- A vector reduction <maximumf> over the last axis, from the -∞ word, is the row maximum. -/
theorem multiReduction_max_last (x : FVec Ideal ⟨3, ![R, K, L]⟩ .f32)
    (h : (⟨3, ![R, K, L]⟩ : Shape).Reduces [2] ⟨2, ![R, K]⟩) (hφ : FKind.Formats .f32)
    (hacc : (0xFF800000#32 : BitVec 32) = FKind.maximumf.neutral .f32 hφ) (r : Fin R) (k : Fin K) :
    multiReduction .maximumf [2] ⟨2, ![R, K]⟩ x 0xFF800000#32 h hφ hacc (ix2 r k) = rowMax x r k := by
  refine (Ideal.multiReduction_maximumf_single x 0xFF800000#32 h hφ hacc (ix2 r k)).trans ?_
  unfold rowMax
  show Finset.fold max _ (x ∘ h.lift (ix2 r k)) (Finset.univ : Finset (Fin L)) = _
  refine congrArg (fun f => Finset.fold max _ f (Finset.univ : Finset (Fin L))) (funext fun l => ?_)
  exact congrArg x (funext fun c => Fin.ext (by match c with | ⟨0, _⟩ => rfl | ⟨1, _⟩ => rfl | ⟨2, _⟩ => rfl))

/-- The host's reduce with a maximum body over the last axis, from the -∞ word, is the row maximum. -/
theorem hostReduce_max_last (x : FVec Ideal ⟨3, ![R, K, L]⟩ .f32)
    (h' : (⟨3, ![R, K, L]⟩ : Shape).ReducesTo [2] ⟨2, ![R, K]⟩) (h : (⟨3, ![R, K, L]⟩ : Shape).Reduces [2] ⟨2, ![R, K]⟩)
    (hu : 0 < (⟨0, ![]⟩ : Shape).numel) (r : Fin R) (k : Fin K) :
    Host.reduce FloatOps.maximumf x (constant (F := Ideal) ⟨0, ![]⟩ .f32 0xFF800000#32) h' hu (ix2 r k) = rowMax x r k := by
  refine (Host.reduce_eq_fold_single FloatOps.maximumf x _ h' h hu (ix2 r k)).trans ?_
  unfold rowMax
  show Finset.fold max _ (x ∘ h.lift (ix2 r k)) (Finset.univ : Finset (Fin L)) = _
  refine congrArg (fun f => Finset.fold max _ f (Finset.univ : Finset (Fin L))) (funext fun l => ?_)
  exact congrArg x (funext fun c => Fin.ext (by match c with | ⟨0, _⟩ => rfl | ⟨1, _⟩ => rfl | ⟨2, _⟩ => rfl))

/-- A vector reduction <add> over the last axis of a rank-2 array is the finite sum of the row. -/
theorem multiReduction_add_last (y : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ y 0x00000000#32 h hφ hacc (ix1 r) = ∑ k : Fin K, y (ix2 r k) := by
  refine (Ideal.multiReduction_add_single y 0x00000000#32 h hφ hacc (ix1 r)).trans ?_
  show ∑ k : Fin K, y (h.lift (ix1 r) k) = _
  refine Finset.sum_congr rfl fun k _ => ?_
  exact congrArg y (funext fun c => Fin.ext (by match c with | ⟨0, _⟩ => rfl | ⟨1, _⟩ => rfl))

/-- The host's reduce with an add body over the last axis of a rank-2 array, from the zero word, is the
    same finite sum. -/
theorem hostReduceAdd_last (y : FVec Ideal ⟨2, ![R, K]⟩ .f32)
    (h' : (⟨2, ![R, K]⟩ : Shape).ReducesTo [1] ⟨1, ![R]⟩) (h : (⟨2, ![R, K]⟩ : Shape).Reduces [1] ⟨1, ![R]⟩)
    (hu : 0 < (⟨0, ![]⟩ : Shape).numel) (r : Fin R) :
    Host.reduceAdd y (constant (F := Ideal) ⟨0, ![]⟩ .f32 0x00000000#32) h' hu (ix1 r) = ∑ k : Fin K, y (ix2 r k) := by
  unfold Host.reduceAdd
  rw [Ideal.hostReduceAdd_def]
  refine (Ideal.hostReduceAdd_single h' h y _ (ix1 r)).trans ?_
  show Ideal.ofBits .f32 0x00000000#32 + ∑ k : Fin K, y (h.lift (ix1 r) k) = _
  rw [Ideal.ofBits_zero_f32, zero_add]
  refine Finset.sum_congr rfl fun k _ => ?_
  exact congrArg y (funext fun c => Fin.ext (by match c with | ⟨0, _⟩ => rfl | ⟨1, _⟩ => rfl))

/-! ## The mask bit as a weight -/

/-- The weight a 32-bit mask word stands for: the test "word ≠ 0", widened to 32 bits and read as a signed
    integer (1 where the word is not zero, 0 where it is). -/
def wordWeight (w : BitVec 32) : EReal :=
  FloatOps.sitofp (F := Ideal) .f32 ((IntOp.cmpi .ne w (0#32 : BitVec 32)).setWidth 32)

/-- The kernel's spelling of the weights — mask words compared unequal to the zero splat, the bits widened to
    32 bits and converted as signed integers — read at an index. -/
theorem weight_apply {s : Shape} (x1 : IVec s 32) (h : 1 < 32) (j : s.Idx) :
    (sitofp (F := Ideal) .f32 (extui 32 (cmpi .ne x1 (constantI s 32 0#32)) h) : FVec Ideal s .f32) j = wordWeight (x1 j) := rfl

/-- Of a bit widened to 32 bits the weight is the bit read as an unsigned integer: 0 or 1. -/
theorem wordWeight_bit (b : BitVec 1) : wordWeight (b.setWidth 32) = FloatOps.uitofp (F := Ideal) .f32 b := by
  show (((((IntOp.cmpi .ne (b.setWidth 32) (0#32 : BitVec 32)).setWidth 32).toInt : ℤ) : ℝ) : EReal) = (((b.toNat : ℕ) : ℝ) : EReal)
  rcases BitVec.eq_zero_or_eq_one b with hb | hb <;> subst hb
  · have e : ((IntOp.cmpi .ne ((0#1 : BitVec 1).setWidth 32) (0#32 : BitVec 32)).setWidth 32).toInt = 0 := by decide
    rw [e]; simp
  · have e : ((IntOp.cmpi .ne ((1#1 : BitVec 1).setWidth 32) (0#32 : BitVec 32)).setWidth 32).toInt = 1 := by decide
    rw [e]; simp

end Cert.MaskedRowMax

end
-- ==== Proof.LibFilterTile.lean ====
/-
  The filter kernel's tile of edges is that tile of the whole filter stage.

  On the tile whose edges are edges o, o + 1, … the kernel forms the scaled lengths, the hidden rows (an outer product
  of the column of scaled lengths with the one row of first weights, plus the bias row, through tanh), the product of
  the hidden rows with the second weight into a zero accumulator plus the second bias row, the cutoff column, the
  product of each filter row with its edge's cutoff, and the sum along each row. Every step acts on one edge's row at a
  time, so what it leaves for edge p of the tile is the whole-array `filterSum` at edge o + p.
-/
import proofs.«179561_j47974784696341_2_alg».proof.Proof.LibFilterConv
import proofs.«179561_j47974784696341_2_alg».proof.Proof.LibMaskedRowMax

noncomputable section

namespace Cert.FilterConv

open Idealize.ShloMosaic Idealize.ShloMosaic.ValueIdx Cert.LibTileRows Cert.LibDenseTanh Cert.LibPlainDot Cert.LibScaledRows

variable {Mb M K N : Nat}

/-- Edge p of the kernel's tile is edge o + p of the filter stage. -/
theorem tile_filterSum (d : DotDims ⟨2, ![Mb, K]⟩ ⟨2, ![K, N]⟩ ⟨2, ![Mb, N]⟩) (hd : Plain d)
    (x0 : FVec Ideal ⟨2, ![Mb, 1]⟩ .f32) (x1 x2 : FVec Ideal ⟨2, ![1, K]⟩ .f32) (x3 : FVec Ideal ⟨2, ![K, N]⟩ .f32)
    (x4 : FVec Ideal ⟨2, ![1, N]⟩ .f32)
    (hbK1 : (⟨2, ![Mb, 1]⟩ : Shape).Broadcasts ⟨2, ![Mb, K]⟩) (hbK : (⟨2, ![1, K]⟩ : Shape).Broadcasts ⟨2, ![Mb, K]⟩)
    (hbN1 : (⟨2, ![Mb, 1]⟩ : Shape).Broadcasts ⟨2, ![Mb, N]⟩) (hbN : (⟨2, ![1, N]⟩ : Shape).Broadcasts ⟨2, ![Mb, N]⟩)
    (ht : FTy.bf16.bits < FTy.f32.bits)
    (hred : (⟨2, ![Mb, N]⟩ : Shape).Reduces [1] ⟨1, ![Mb]⟩) (hφ : FKind.Formats .f32)
    (hacc : (0x00000000#32 : BitVec 32) = FKind.add.neutral .f32 hφ)
    (hsc : (⟨1, ![Mb]⟩ : Shape).ShapeCasts ⟨2, ![Mb, 1]⟩)
    (EW : (⟨2, ![M, 1]⟩ : Shape).Idx → EReal) (o : Nat)
    (hE : ∀ (x : (⟨2, ![Mb, 1]⟩ : Shape).Idx) (k : (⟨2, ![M, 1]⟩ : Shape).Idx), (k 0).val = o + (x 0).val → x0 x = EW k)
    (y : (⟨2, ![Mb, 1]⟩ : Shape).Idx) (i : (⟨2, ![M, 1]⟩ : Shape).Idx) (hi0 : (i 0).val = o + (y 0).val) :
    shapeCast ⟨2, ![Mb, 1]⟩
      (multiReduction .add [1] ⟨1, ![Mb]⟩
        (mulf (addf (matmul d none (truncf .bf16 (tanh (addf (mulf (broadcastTo ⟨2, ![Mb, K]⟩ (subf (mulf x0 (broadcast ⟨2, ![Mb, 1]⟩ (Scalar.ofBits .f32 0x3E800000#32))) (broadcast ⟨2, ![Mb, 1]⟩ (Scalar.ofBits .f32 0x3F800000#32))) hbK1) (broadcastTo ⟨2, ![Mb, K]⟩ x1 hbK)) (broadcastTo ⟨2, ![Mb, K]⟩ x2 hbK))) ht) (truncf .bf16 x3 ht) (constant ⟨2, ![Mb, N]⟩ .f32 0x00000000#32))
            (broadcastTo ⟨2, ![Mb, N]⟩ x4 hbN))
          (broadcastTo ⟨2, ![Mb, N]⟩ (select (cmpf .ole x0 (broadcast ⟨2, ![Mb, 1]⟩ (Scalar.ofBits .f32 0x41000000#32))) (mulf (broadcast ⟨2, ![Mb, 1]⟩ (Scalar.ofBits .f32 0x3F000000#32)) (addf (cos (mulf x0 (broadcast ⟨2, ![Mb, 1]⟩ (Scalar.ofBits .f32 0x3EC90FDB#32)))) (broadcast ⟨2, ![Mb, 1]⟩ (Scalar.ofBits .f32 0x3F800000#32)))) (broadcast ⟨2, ![Mb, 1]⟩ (Scalar.ofBits .f32 0x00000000#32))) hbN1) : FVec Ideal ⟨2, ![Mb, N]⟩ .f32)
        0x00000000#32 hred hφ hacc) hsc y
      = filterSum EW x1 x2 x3 x4 i := by
  obtain ⟨p, c0, rfl⟩ : ∃ (p : Fin Mb) (c0 : Fin 1), y = ix2 p c0 := ⟨y 0, y 1, eq_ix2 y⟩
  obtain ⟨u, c1, rfl⟩ : ∃ (u : Fin M) (c1 : Fin 1), i = ix2 u c1 := ⟨i 0, i 1, eq_ix2 i⟩
  have hup : u.val = o + p.val := hi0
  rw [Cert.MaskedRowMax.shapeCast_a_a1_apply _ hsc p c0, Cert.MaskedRowMax.multiReduction_add_last _ hred hφ hacc p]
  show _ = ∑ c : Fin N, filtered EW x1 x2 x3 x4 (ix2 u c)
  refine Finset.sum_congr rfl fun c _ => ?_
  have hH : ∀ (x : (⟨2, ![Mb, K]⟩ : Shape).Idx) (k : (⟨2, ![M, K]⟩ : Shape).Idx),
      (k 0).val = o + (x 0).val → (k 1).val = (x 1).val →
      (truncf .bf16 (tanh (addf (mulf (broadcastTo ⟨2, ![Mb, K]⟩ (subf (mulf x0 (broadcast ⟨2, ![Mb, 1]⟩ (Scalar.ofBits .f32 0x3E800000#32))) (broadcast ⟨2, ![Mb, 1]⟩ (Scalar.ofBits .f32 0x3F800000#32))) hbK1) (broadcastTo ⟨2, ![Mb, K]⟩ x1 hbK)) (broadcastTo ⟨2, ![Mb, K]⟩ x2 hbK))) ht : FVec Ideal ⟨2, ![Mb, K]⟩ .bf16) x = hidden EW x1 x2 k := by
    intro x k e0 e1
    obtain ⟨a, b, rfl⟩ : ∃ (a : Fin Mb) (b : Fin K), x = ix2 a b := ⟨x 0, x 1, eq_ix2 x⟩
    obtain ⟨a', b', rfl⟩ : ∃ (a' : Fin M) (b' : Fin K), k = ix2 a' b' := ⟨k 0, k 1, eq_ix2 k⟩
    have hb' : b' = b := Fin.ext e1
    subst hb'
    have g1 := broadcastTo_a1_ab_apply (subf (mulf x0 (broadcast ⟨2, ![Mb, 1]⟩ (Scalar.ofBits .f32 0x3E800000#32))) (broadcast ⟨2, ![Mb, 1]⟩ (Scalar.ofBits .f32 0x3F800000#32)) : FVec Ideal ⟨2, ![Mb, 1]⟩ .f32) hbK1 a b'
    have g2 := broadcastTo_1b_ab_apply x1 hbK a b'
    have g3 := broadcastTo_1b_ab_apply x2 hbK a b'
    have g0 : x0 (ix2 a (0 : Fin 1)) = EW (ix2 a' (0 : Fin 1)) := hE _ _ e0
    exact congrArg (FloatOps.tanh (F := Ideal) (φ := .f32))
      (congrArg₂ (FloatOps.addf (F := Ideal) (φ := .f32))
        (congrArg₂ (FloatOps.mulf (F := Ideal) (φ := .f32)) (g1.trans (congrArg scaleDist g0)) g2) g3)
  have hD := tile_dense' d hd _ (truncf .bf16 x3 ht) x4 hbN (hidden EW x1 x2) x3 x4 o hH (fun _ => rfl) (fun _ => rfl)
    (ix2 p c) (ix2 u c) hup rfl
  have gC := broadcastTo_a1_ab_apply ((select (cmpf .ole x0 (broadcast ⟨2, ![Mb, 1]⟩ (Scalar.ofBits .f32 0x41000000#32))) (mulf (broadcast ⟨2, ![Mb, 1]⟩ (Scalar.ofBits .f32 0x3F000000#32)) (addf (cos (mulf x0 (broadcast ⟨2, ![Mb, 1]⟩ (Scalar.ofBits .f32 0x3EC90FDB#32)))) (broadcast ⟨2, ![Mb, 1]⟩ (Scalar.ofBits .f32 0x3F800000#32)))) (broadcast ⟨2, ![Mb, 1]⟩ (Scalar.ofBits .f32 0x00000000#32))) : FVec Ideal ⟨2, ![Mb, 1]⟩ .f32) hbN1 p c
  have gE : x0 (ix2 p (0 : Fin 1)) = EW (ix2 u (0 : Fin 1)) := hE _ _ hup
  exact congrArg₂ (FloatOps.mulf (F := Ideal) (φ := .f32)) hD (gC.trans (congrArg cutoff gE))

end Cert.FilterConv

end
-- ==== Proof.KValue0.lean ====
/-
  What the filter kernel's launch leaves in its output array.

  The launch walks the 1,600,000 edges in 200 tiles of 8,000. At tile t the edge-length window holds edges
  8000·t, 8000·t + 1, …, the four weight windows hold their whole arrays, and the body's one store writes, for edge p of
  the tile, the filter stage's number of edge 8000·t + p. The tiles cover every edge, so after the launch the output
  array is the whole-array filter stage of the arrays the launch found.
-/
import proofs.«179561_j47974784696341_2_alg».proof.Proof.Gen.KernelIdeal.Frame
import proofs.«179561_j47974784696341_2_alg».proof.Proof.LibFilterTile

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FilterConv

variable (V : (c : Dev nD) → (b : Ref sig .tc) → Buf (Elt Ideal) ((c : Thread nD τ).loc b))

theorem hz : (![0, 0] : Fin 2 → Nat) = fun _ => 0 := funext fun a => by fin_cases a <;> rfl

/-- The filter kernel's product contracts the hidden rows' axis 1 against the weight's axis 0. -/
theorem plain0 : Cert.LibPlainDot.Plain dot_S8000x64_S64x64_S8000x64_1_0_0_1_n_n := ⟨rfl, rfl, rfl, rfl, rfl, rfl⟩

/-- The body's stored value at edge p of a tile whose edges start at edge o. -/
theorem pay0_eq (x0 : FVec Ideal S8000x1 .f32) (x1 x2 : FVec Ideal S1x64 .f32) (x3 : FVec Ideal S64x64 .f32)
    (x4 : FVec Ideal S1x64 .f32) (EW : S1600000x1.Idx → EReal) (o : Nat)
    (hE : ∀ (x : S8000x1.Idx) (k : S1600000x1.Idx), (k 0).val = o + (x 0).val → x0 x = EW k)
    (y : S8000x1.Idx) (i : S1600000x1.Idx) (hi0 : (i 0).val = o + (y 0).val) :
    k0_pay1 (F := Ideal) x0 x1 x2 x3 x4 y = filterSum EW x1 x2 x3 x4 i := by
  unfold k0_pay1
  simp only [shapeCast_self]
  exact tile_filterSum _ plain0 x0 x1 x2 x3 x4 _ _ _ _ _ _ _ _ _ EW o hE y i hi0

/-- The printed index maps over the grid: the edge windows move one block per point, the weight windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 1's block at any point is its whole array. -/
theorem iblk0_1 (c : Dev nD) (t : Fin cfg0.N) (x : S1x64.Idx) : iblk0 V c 1 t x = V c main_arg4 x := by
  show V c main_arg4 (((cfg0.win 1).blk t).view.emb x) = V c main_arg4 x
  refine congrArg _ (funext fun a => Fin.ext ?_)
  obtain ⟨e00, e01, e10, e11, e20, e21, e30, e31, e40, e41, e50, e51⟩ := idx0 t
  match a with
  | ⟨0, _⟩ => show win0_1.index t (0 : Fin 2) * 1 + 1 * (x 0).val = (x 0).val; omega
  | ⟨1, _⟩ => show win0_1.index t (1 : Fin 2) * 64 + 1 * (x 1).val = (x 1).val; omega

/-- Window 2's block at any point is its whole array. -/
theorem iblk0_2 (c : Dev nD) (t : Fin cfg0.N) (x : S1x64.Idx) : iblk0 V c 2 t x = V c main_v5 x := by
  show V c main_v5 (((cfg0.win 2).blk t).view.emb x) = V c main_v5 x
  refine congrArg _ (funext fun a => Fin.ext ?_)
  obtain ⟨e00, e01, e10, e11, e20, e21, e30, e31, e40, e41, e50, e51⟩ := idx0 t
  match a with
  | ⟨0, _⟩ => show win0_2.index t (0 : Fin 2) * 1 + 1 * (x 0).val = (x 0).val; omega
  | ⟨1, _⟩ => show win0_2.index t (1 : Fin 2) * 64 + 1 * (x 1).val = (x 1).val; omega

/-- Window 3's block at any point is its whole array. -/
theorem iblk0_3 (c : Dev nD) (t : Fin cfg0.N) (x : S64x64.Idx) : iblk0 V c 3 t x = V c main_arg6 x := by
  show V c main_arg6 (((cfg0.win 3).blk t).view.emb x) = V c main_arg6 x
  refine congrArg _ (funext fun a => Fin.ext ?_)
  obtain ⟨e00, e01, e10, e11, e20, e21, e30, e31, e40, e41, e50, e51⟩ := idx0 t
  match a with
  | ⟨0, _⟩ => show win0_3.index t (0 : Fin 2) * 64 + 1 * (x 0).val = (x 0).val; omega
  | ⟨1, _⟩ => show win0_3.index t (1 : Fin 2) * 64 + 1 * (x 1).val = (x 1).val; omega

/-- Window 4's block at any point is its whole array. -/
theorem iblk0_4 (c : Dev nD) (t : Fin cfg0.N) (x : S1x64.Idx) : iblk0 V c 4 t x = V c main_v6 x := by
  show V c main_v6 (((cfg0.win 4).blk t).view.emb x) = V c main_v6 x
  refine congrArg _ (funext fun a => Fin.ext ?_)
  obtain ⟨e00, e01, e10, e11, e20, e21, e30, e31, e40, e41, e50, e51⟩ := idx0 t
  match a with
  | ⟨0, _⟩ => show win0_4.index t (0 : Fin 2) * 1 + 1 * (x 0).val = (x 0).val; omega
  | ⟨1, _⟩ => show win0_4.index t (1 : Fin 2) * 64 + 1 * (x 1).val = (x 1).val; omega

/-- What point t writes back is block t of the filter stage of the arrays the launch found. -/
theorem flushed0 (c : Dev nD) (t : Fin cfg0.N) :
    (dat0 V c).flushed 5 t = ((cfg0.win 5).blk t).view.read (Elt Ideal)
      (filterSum (V c main_v4) (V c main_arg4) (V c main_v5) (V c main_arg6) (V c main_v6)) := by
  show (cfg0.win 5).cut (grid0.coords t) ((dat0 V c).after 5 t) = _
  rw [after0_5]
  unfold out0_5
  rw [View.canon_unit_zero hz]
  simp only [View.ld_unit_zero (S := S8000x1) hz, View.ld_unit_zero (S := S1x64) hz, View.ld_unit_zero (S := S64x64) hz]
  funext j
  obtain ⟨e00, e01, e10, e11, e20, e21, e30, e31, e40, e41, e50, e51⟩ := idx0 t
  refine (pay0_eq (iblk0 V c 0 t) (iblk0 V c 1 t) (iblk0 V c 2 t) (iblk0 V c 3 t) (iblk0 V c 4 t) (V c main_v4) (8000 * t.val) ?_ j
    (((cfg0.win 5).blk t).view.emb j) ?_).trans ?_
  · intro x k hk
    show V c main_v4 (((cfg0.win 0).blk t).view.emb x) = V c main_v4 k
    refine congrArg _ (funext fun a => Fin.ext ?_)
    match a with
    | ⟨0, _⟩ => show win0_0.index t (0 : Fin 2) * 8000 + 1 * (x 0).val = (k 0).val; omega
    | ⟨1, _⟩ =>
      show win0_0.index t (1 : Fin 2) * 1 + 1 * (x 1).val = (k 1).val
      have h1 : (x 1).val < 1 := (x 1).isLt
      have h2 : (k 1).val < 1 := (k 1).isLt
      omega
  · show win0_5.index t (0 : Fin 2) * 8000 + 1 * (j 0).val = 8000 * t.val + (j 0).val
    omega
  · show filterSum (V c main_v4) (iblk0 V c 1 t) (iblk0 V c 2 t) (iblk0 V c 3 t) (iblk0 V c 4 t) (((cfg0.win 5).blk t).view.emb j)
      = filterSum (V c main_v4) (V c main_arg4) (V c main_v5) (V c main_arg6) (V c main_v6) (((cfg0.win 5).blk t).view.emb j)
    rw [show iblk0 V c 1 t = V c main_arg4 from funext (iblk0_1 V c t), show iblk0 V c 2 t = V c main_v5 from funext (iblk0_2 V c t),
      show iblk0 V c 3 t = V c main_arg6 from funext (iblk0_3 V c t), show iblk0 V c 4 t = V c main_v6 from funext (iblk0_4 V c t)]

/-- An edge is in point t's block iff its number is in the block's range. -/
theorem mem_blk0 (t : Fin cfg0.N) (i : S1600000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v7).slice (win0_5.rect t)).set ↔ _
  rw [View.set_slice_whole, Rect.mem_set_unit]
  exact Iff.rfl

/-- Every edge is in the block of the point numbered by its tile. -/
theorem cover0 (i : S1600000x1.Idx) : ∃ t : Fin cfg0.N, (cfg0.win 5).flush t = true ∧ i ∈ ((cfg0.win 5).blk t).view.set := by
  have hi0 : (i 0).val < 1600000 := (i 0).isLt
  have hi1 : (i 1).val < 1 := (i 1).isLt
  have hN : cfg0.N = 200 := N_0
  have ht : (i 0).val / 8000 < cfg0.N := by rw [hN]; omega
  refine ⟨⟨(i 0).val / 8000, ht⟩, flush0_5 _, ?_⟩
  rw [mem_blk0]
  obtain ⟨e00, e01, e10, e11, e20, e21, e30, e31, e40, e41, e50, e51⟩ := idx0 ⟨(i 0).val / 8000, ht⟩
  have e50' : win0_5.index ⟨(i 0).val / 8000, ht⟩ (0 : Fin 2) = (i 0).val / 8000 := e50
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    omega
  | ⟨1, _⟩ =>
    show win0_5.index ⟨(i 0).val / 8000, ht⟩ (1 : Fin 2) * 1 ≤ (i 1).val ∧ (i 1).val < win0_5.index ⟨(i 0).val / 8000, ht⟩ (1 : Fin 2) * 1 + 1
    omega

/-- After the launch the output array is the filter stage of the arrays the launch found. -/
theorem final0 (c : Dev nD) :
    (dat0 V c).arrAt 5 cfg0.N = filterSum (V c main_v4) (V c main_arg4) (V c main_v5) (V c main_arg6) (V c main_v6) :=
  (dat0 V c).arrAt_eq_of_cover 5 _ (fun t _ => flushed0 V c t) cover0

end Cert.KernelIdeal.RegionValue

end
-- ==== Proof.LibInteractTile.lean ====
/-
  The interaction kernel's tile of rows is that tile of the whole interaction stage.

  On the tile whose rows are rows o, o + 1, … of the aggregated messages the kernel multiplies the tile by the first
  weight into a zero accumulator, adds the first bias row, applies the soft rectifier entry by entry, multiplies by the
  second weight, adds the second bias row and normalises column by column. Every step either acts entry by entry or is
  a product of the tile's rows with a whole weight, so row p of what it leaves is row o + p of the whole-array
  `interact`. The changes of float format before each product are the identity on the extended reals.
-/
import proofs.«179561_j47974784696341_2_alg».proof.Proof.LibFilterConv

noncomputable section

namespace Cert.FilterConv

open Idealize.ShloMosaic Idealize.ShloMosaic.ValueIdx Cert.LibTileRows Cert.LibDenseTanh Cert.LibPlainDot

variable {Mb M N : Nat}

/-- Row p of the kernel's tile is row o + p of the interaction stage. -/
theorem tile_interact (d : DotDims ⟨2, ![Mb, N]⟩ ⟨2, ![N, N]⟩ ⟨2, ![Mb, N]⟩) (hd : Plain d)
    (x0 : FVec Ideal ⟨2, ![Mb, N]⟩ .f32) (x1 x3 : FVec Ideal ⟨2, ![N, N]⟩ .f32)
    (x2 x4 x5 x6 x7 x8 : FVec Ideal ⟨2, ![1, N]⟩ .f32)
    (hb : (⟨2, ![1, N]⟩ : Shape).Broadcasts ⟨2, ![Mb, N]⟩) (ht : FTy.bf16.bits < FTy.f32.bits)
    (A : (⟨2, ![M, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → x0 x = A k)
    (y : (⟨2, ![Mb, N]⟩ : Shape).Idx) (i : (⟨2, ![M, N]⟩ : Shape).Idx)
    (hi0 : (i 0).val = o + (y 0).val) (hi1 : (i 1).val = (y 1).val) :
    (addf (mulf (mulf (broadcastTo ⟨2, ![Mb, N]⟩ x5 hb)
        (subf (addf (matmul d none (truncf .bf16 (select (cmpf .one (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32)))) (addf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (addf (maximumf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (log1p (exp (subf (broadcast ⟨2, ![Mb, N]⟩ (Scalar.ofBits .f32 0x00000000#32)) (absf (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))))))))) ht) (truncf .bf16 x3 ht) (constant ⟨2, ![Mb, N]⟩ .f32 0x00000000#32))
          (broadcastTo ⟨2, ![Mb, N]⟩ x4 hb))
          (broadcastTo ⟨2, ![Mb, N]⟩ x7 hb)))
        (broadcastTo ⟨2, ![Mb, N]⟩ (rsqrt (addf x8 (broadcast ⟨2, ![1, N]⟩ (Scalar.ofBits .f32 0x3A83126F#32)))) hb))
      (broadcastTo ⟨2, ![Mb, N]⟩ x6 hb) : FVec Ideal ⟨2, ![Mb, N]⟩ .f32) y
      = interact A x1 x2 x3 x4 x5 x6 x7 x8 i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  have hS : ∀ (x : (⟨2, ![Mb, N]⟩ : Shape).Idx) (k : (⟨2, ![M, N]⟩ : Shape).Idx),
      (k 0).val = o + (x 0).val → (k 1).val = (x 1).val →
      (truncf .bf16 (select (cmpf .one (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32)))) (addf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (addf (maximumf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (log1p (exp (subf (broadcast ⟨2, ![Mb, N]⟩ (Scalar.ofBits .f32 0x00000000#32)) (absf (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))))))))) ht : FVec Ideal ⟨2, ![Mb, N]⟩ .bf16) x = softDense A x1 x2 k := fun x k e0 e1 =>
    congrArg softplus (tile_dense' d hd (truncf .bf16 x0 ht) (truncf .bf16 x1 ht) x2 hb A x1 x2 o
      (fun x k e0 e1 => hA x k e0 e1) (fun _ => rfl) (fun _ => rfl) x k e0 e1)
  have hO := tile_dense' d hd (truncf .bf16 (select (cmpf .one (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32)))) (addf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (addf (maximumf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))) (log1p (exp (subf (broadcast ⟨2, ![Mb, N]⟩ (Scalar.ofBits .f32 0x00000000#32)) (absf (subf (addf (matmul d none (truncf .bf16 x0 ht) (truncf .bf16 x1 ht) (constant ⟨2, ![Mb, N]⟩ .f32 0x00000000#32)) (broadcastTo ⟨2, ![Mb, N]⟩ x2 hb)) (broadcast ⟨2, ![Mb, N]⟩ (Scalar.ofBits .f32 0x00000000#32))))))))) ht : FVec Ideal ⟨2, ![Mb, N]⟩ .bf16) (truncf .bf16 x3 ht) x4 hb
    (softDense A x1 x2) x3 x4 o hS (fun _ => rfl) (fun _ => rfl) (ix2 p v) (ix2 u v) hi0 rfl
  have e5 := broadcastTo_1b_ab_apply x5 hb p v
  have e6 := broadcastTo_1b_ab_apply x6 hb p v
  have e7 := broadcastTo_1b_ab_apply x7 hb p v
  have eR := broadcastTo_1b_ab_apply ((rsqrt (addf x8 (broadcast ⟨2, ![1, N]⟩ (Scalar.ofBits .f32 0x3A83126F#32)))) : FVec Ideal ⟨2, ![1, N]⟩ .f32) hb p v
  exact congrArg₂ (FloatOps.addf (F := Ideal) (φ := .f32))
    (congrArg₂ (FloatOps.mulf (F := Ideal) (φ := .f32))
      (congrArg₂ (FloatOps.mulf (F := Ideal) (φ := .f32)) e5 (congrArg₂ (FloatOps.subf (F := Ideal) (φ := .f32)) hO e7)) eR) e6

end Cert.FilterConv

end
-- ==== Proof.KValue1.lean ====
/-
  What the interaction kernel's launch leaves in its output array.

  The launch walks the 100,000 nodes in 20 tiles of 5,000. At tile t the window of aggregated messages holds rows
  5000·t, 5000·t + 1, …, the eight weight, bias and normalisation windows hold their whole arrays, and the body's one
  store writes, for row p of the tile, row 5000·t + p of the interaction stage. The tiles cover every node, so after the
  launch the output array is the whole-array interaction stage of the arrays the launch found.
-/
import proofs.«179561_j47974784696341_2_alg».proof.Proof.Gen.KernelIdeal.Frame
import proofs.«179561_j47974784696341_2_alg».proof.Proof.LibInteractTile

set_option maxRecDepth 16384

noncomputable section

namespace Cert.KernelIdeal.RegionValue1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FilterConv

variable (V : (c : Dev nD) → (b : Ref sig .tc) → Buf (Elt Ideal) ((c : Thread nD τ).loc b))

theorem hz : (![0, 0] : Fin 2 → Nat) = fun _ => 0 := funext fun a => by fin_cases a <;> rfl

/-- The interaction kernel's products contract the left operand's axis 1 against the weight's axis 0. -/
theorem plain1 : Cert.LibPlainDot.Plain dot_S5000x128_S128x128_S5000x128_1_0_0_1_n_n := ⟨rfl, rfl, rfl, rfl, rfl, rfl⟩

/-- The body's stored value at row p of a tile whose rows start at row o. -/
theorem pay1_eq (x0 : FVec Ideal S5000x128 .f32) (x1 : FVec Ideal S128x128 .f32) (x2 : FVec Ideal S1x128 .f32)
    (x3 : FVec Ideal S128x128 .f32) (x4 x5 x6 x7 x8 : FVec Ideal S1x128 .f32) (A : S100000x128.Idx → EReal) (o : Nat)
    (hA : ∀ (x : S5000x128.Idx) (k : S100000x128.Idx), (k 0).val = o + (x 0).val → (k 1).val = (x 1).val → x0 x = A k)
    (y : S5000x128.Idx) (i : S100000x128.Idx) (hi0 : (i 0).val = o + (y 0).val) (hi1 : (i 1).val = (y 1).val) :
    k1_pay1 (F := Ideal) (k1_pay2 (F := Ideal) x0 x1 x2 x3 x4) (k1_pay3 (F := Ideal) x5) (k1_pay4 (F := Ideal) x6) (k1_pay5 (F := Ideal) x7) x8 y
      = interact A x1 x2 x3 x4 x5 x6 x7 x8 i := by
  unfold k1_pay1 k1_pay2 k1_pay3 k1_pay4 k1_pay5
  simp only [shapeCast_self]
  exact tile_interact _ plain1 x0 x1 x3 x2 x4 x5 x6 x7 x8 _ _ A o hA y i hi0 hi1

/-- The printed index maps over the grid: the message and output windows move one block per point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Window 1's block at any point is its whole array. -/
theorem iblk1_1 (c : Dev nD) (t : Fin cfg1.N) (x : S128x128.Idx) : iblk1 V c 1 t x = V c main_arg8 x := by
  show V c main_arg8 (((cfg1.win 1).blk t).view.emb x) = V c main_arg8 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_1.index t (0 : Fin 2) * 128 + 1 * (x 0).val = (x 0).val; omega
  | ⟨1, _⟩ => show win1_1.index t (1 : Fin 2) * 128 + 1 * (x 1).val = (x 1).val; omega

/-- Window 2's block at any point is its whole array. -/
theorem iblk1_2 (c : Dev nD) (t : Fin cfg1.N) (x : S1x128.Idx) : iblk1 V c 2 t x = V c main_v20 x := by
  show V c main_v20 (((cfg1.win 2).blk t).view.emb x) = V c main_v20 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_2.index t (0 : Fin 2) * 1 + 1 * (x 0).val = (x 0).val; omega
  | ⟨1, _⟩ => show win1_2.index t (1 : Fin 2) * 128 + 1 * (x 1).val = (x 1).val; omega

/-- Window 3's block at any point is its whole array. -/
theorem iblk1_3 (c : Dev nD) (t : Fin cfg1.N) (x : S128x128.Idx) : iblk1 V c 3 t x = V c main_arg10 x := by
  show V c main_arg10 (((cfg1.win 3).blk t).view.emb x) = V c main_arg10 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- Window 4's block at any point is its whole array. -/
theorem iblk1_4 (c : Dev nD) (t : Fin cfg1.N) (x : S1x128.Idx) : iblk1 V c 4 t x = V c main_v21 x := by
  show V c main_v21 (((cfg1.win 4).blk t).view.emb x) = V c main_v21 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- Window 5's block at any point is its whole array. -/
theorem iblk1_5 (c : Dev nD) (t : Fin cfg1.N) (x : S1x128.Idx) : iblk1 V c 5 t x = V c main_v22 x := by
  show V c main_v22 (((cfg1.win 5).blk t).view.emb x) = V c main_v22 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- Window 6's block at any point is its whole array. -/
theorem iblk1_6 (c : Dev nD) (t : Fin cfg1.N) (x : S1x128.Idx) : iblk1 V c 6 t x = V c main_v23 x := by
  show V c main_v23 (((cfg1.win 6).blk t).view.emb x) = V c main_v23 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- Window 7's block at any point is its whole array. -/
theorem iblk1_7 (c : Dev nD) (t : Fin cfg1.N) (x : S1x128.Idx) : iblk1 V c 7 t x = V c main_v24 x := by
  show V c main_v24 (((cfg1.win 7).blk t).view.emb x) = V c main_v24 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_7.index t (0 : Fin 2) * 1 + 1 * (x 0).val = (x 0).val; omega
  | ⟨1, _⟩ => show win1_7.index t (1 : Fin 2) * 128 + 1 * (x 1).val = (x 1).val; omega

/-- Window 8's block at any point is its whole array. -/
theorem iblk1_8 (c : Dev nD) (t : Fin cfg1.N) (x : S1x128.Idx) : iblk1 V c 8 t x = V c main_v25 x := by
  show V c main_v25 (((cfg1.win 8).blk t).view.emb x) = V c main_v25 x
  refine congrArg _ (funext fun a => Fin.ext ?_)
  obtain ⟨e00, e01, e10, e11, e20, e21, e30, e31, e40, e41, e50, e51, e60, e61, e70, e71, e80, e81, e90, e91⟩ := idx1 t
  match a with
  | ⟨0, _⟩ => show win1_8.index t (0 : Fin 2) * 1 + 1 * (x 0).val = (x 0).val; omega
  | ⟨1, _⟩ => show win1_8.index t (1 : Fin 2) * 128 + 1 * (x 1).val = (x 1).val; omega

/-- What point t writes back is block t of the interaction stage of the arrays the launch found. -/
theorem flushed1 (c : Dev nD) (t : Fin cfg1.N) :
    (dat1 V c).flushed 9 t = ((cfg1.win 9).blk t).view.read (Elt Ideal)
      (interact (V c main_v19) (V c main_arg8) (V c main_v20) (V c main_arg10) (V c main_v21) (V c main_v22) (V c main_v23) (V c main_v24) (V c main_v25)) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  funext j
  obtain ⟨e00, e01, e10, e11, e20, e21, e30, e31, e40, e41, e50, e51, e60, e61, e70, e71, e80, e81, e90, e91⟩ := idx1 t
  refine (pay1_eq (iblk1 V c 0 t) (iblk1 V c 1 t) (iblk1 V c 2 t) (iblk1 V c 3 t) (iblk1 V c 4 t) (iblk1 V c 5 t) (iblk1 V c 6 t)
    (iblk1 V c 7 t) (iblk1 V c 8 t) (V c main_v19) (5000 * t.val) ?_ j (((cfg1.win 9).blk t).view.emb j) ?_ ?_).trans ?_
  · intro x k hk0 hk1
    show V c main_v19 (((cfg1.win 0).blk t).view.emb x) = V c main_v19 k
    refine congrArg _ (funext fun a => Fin.ext ?_)
    match a with
    | ⟨0, _⟩ => show win1_0.index t (0 : Fin 2) * 5000 + 1 * (x 0).val = (k 0).val; omega
    | ⟨1, _⟩ => show win1_0.index t (1 : Fin 2) * 128 + 1 * (x 1).val = (k 1).val; omega
  · show win1_9.index t (0 : Fin 2) * 5000 + 1 * (j 0).val = 5000 * t.val + (j 0).val
    omega
  · show win1_9.index t (1 : Fin 2) * 128 + 1 * (j 1).val = (j 1).val
    omega
  · show interact (V c main_v19) (iblk1 V c 1 t) (iblk1 V c 2 t) (iblk1 V c 3 t) (iblk1 V c 4 t) (iblk1 V c 5 t) (iblk1 V c 6 t)
        (iblk1 V c 7 t) (iblk1 V c 8 t) (((cfg1.win 9).blk t).view.emb j)
      = interact (V c main_v19) (V c main_arg8) (V c main_v20) (V c main_arg10) (V c main_v21) (V c main_v22) (V c main_v23) (V c main_v24) (V c main_v25) (((cfg1.win 9).blk t).view.emb j)
    rw [show iblk1 V c 1 t = V c main_arg8 from funext (iblk1_1 V c t),
      show iblk1 V c 2 t = V c main_v20 from funext (iblk1_2 V c t),
      show iblk1 V c 3 t = V c main_arg10 from funext (iblk1_3 V c t),
      show iblk1 V c 4 t = V c main_v21 from funext (iblk1_4 V c t),
      show iblk1 V c 5 t = V c main_v22 from funext (iblk1_5 V c t),
      show iblk1 V c 6 t = V c main_v23 from funext (iblk1_6 V c t),
      show iblk1 V c 7 t = V c main_v24 from funext (iblk1_7 V c t),
      show iblk1 V c 8 t = V c main_v25 from funext (iblk1_8 V c t)]

/-- A node's row is in point t's block iff its number is in the block's range. -/
theorem mem_blk1 (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v26).slice (win1_9.rect t)).set ↔ _
  rw [View.set_slice_whole, Rect.mem_set_unit]
  exact Iff.rfl

/-- Every entry is in the block of the point numbered by its row's tile. -/
theorem cover1 (i : S100000x128.Idx) : ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_9 _, ?_⟩
  rw [mem_blk1]
  obtain ⟨e00, e01, e10, e11, e20, e21, e30, e31, e40, e41, e50, e51, e60, e61, e70, e71, e80, e81, e90, e91⟩ := idx1 ⟨(i 0).val / 5000, ht⟩
  have e90' : win1_9.index ⟨(i 0).val / 5000, ht⟩ (0 : Fin 2) = (i 0).val / 5000 := e90
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    omega
  | ⟨1, _⟩ =>
    show win1_9.index ⟨(i 0).val / 5000, ht⟩ (1 : Fin 2) * 128 ≤ (i 1).val ∧ (i 1).val < win1_9.index ⟨(i 0).val / 5000, ht⟩ (1 : Fin 2) * 128 + 128
    omega

/-- After the launch the output array is the interaction stage of the arrays the launch found. -/
theorem final1 (c : Dev nD) :
    (dat1 V c).arrAt 9 cfg1.N = interact (V c main_v19) (V c main_arg8) (V c main_v20) (V c main_arg10) (V c main_v21) (V c main_v22) (V c main_v23) (V c main_v24) (V c main_v25) :=
  (dat1 V c).arrAt_eq_of_cover 9 _ (fun t _ => flushed1 V c t) cover1

end Cert.KernelIdeal.RegionValue1

end
-- ==== Proof.Middle.lean ====
/-
  The whole computation as one function of the sixteen argument arrays.

  `aggregate` is the message passing between the two dense stages: every edge reads the row of node features of its
  source node (a negative node number is wrapped by the node count first), scales it by the edge's filter sum, and the
  scaled rows are added into the rows of their target nodes, starting from zero. Both programs spell it with the same
  host operations, so it is carried as one function and never opened. `whole` composes the edge list's two rows, the
  filter stage on the edge lengths laid as a column, `aggregate`, and the interaction stage with its five vectors laid
  as rows.
-/
import proofs.«179561_j47974784696341_2_alg».proof.Proof.Gen.KernelIdeal
import proofs.«179561_j47974784696341_2_alg».proof.Proof.LibFilterConv

set_option maxRecDepth 16384

noncomputable section

namespace Cert.KernelIdeal.Whole

open Idealize.ShloMosaic Idealize.ShloMosaic.ValueIdx
open Cert.KernelIdeal Cert.KernelIdeal.Facts₀ Cert.KernelIdeal.Facts Cert.FilterConv

/-- Gather the source rows, scale by the filter sums, add into the target rows. -/
def aggregate (x0 : FVec Ideal S100000x128 .f32) (row col : IVec S1600000 32) (fs : FVec Ideal S1600000x1 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 row)
    (mulf (Host.gather gather_S100000x128_S1600000x1_S1600000x128_1_0_n_n_0_1_1128 x0
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col)))
      (broadcastInDim S1600000x128 ![0, 1] bcast_S1600000x1_S1600000x128_0_1 fs))

/-- Row k of the edge list as a vector of node numbers. -/
def edgeRow0 (a1 : IVec S2x1600000 32) : IVec S1600000 32 :=
  shapeCast S1600000 (extractStridedSlice S1x1600000 ![0, 0] a1 slices_S2x1600000_S1x1600000_0_0) shapeCasts_S1x1600000_S1600000
def edgeRow1 (a1 : IVec S2x1600000 32) : IVec S1600000 32 :=
  shapeCast S1600000 (extractStridedSlice S1x1600000 ![1, 0] a1 slices_S2x1600000_S1x1600000_1_0) shapeCasts_S1x1600000_S1600000

/-- The result array as a function of the argument arrays. -/
def whole (a0 : FVec Ideal S100000x128 .f32) (a1 : IVec S2x1600000 32) (a2 : FVec Ideal S1600000 .f32)
    (a4 : FVec Ideal S1x64 .f32) (a5 : FVec Ideal S64 .f32) (a6 : FVec Ideal S64x64 .f32) (a7 : FVec Ideal S64 .f32)
    (a8 : FVec Ideal S128x128 .f32) (a9 : FVec Ideal S128 .f32) (a10 : FVec Ideal S128x128 .f32)
    (a11 a12 a13 a14 a15 : FVec Ideal S128 .f32) : FVec Ideal S100000x128 .f32 :=
  interact
    (aggregate a0 (edgeRow0 a1) (edgeRow1 a1)
      (filterSum (shapeCast S1600000x1 a2 shapeCasts_S1600000_S1600000x1) a4 (shapeCast S1x64 a5 shapeCasts_S64_S1x64) a6
        (shapeCast S1x64 a7 shapeCasts_S64_S1x64)))
    a8 (shapeCast S1x128 a9 shapeCasts_S128_S1x128) a10 (shapeCast S1x128 a11 shapeCasts_S128_S1x128)
    (shapeCast S1x128 a12 shapeCasts_S128_S1x128) (shapeCast S1x128 a13 shapeCasts_S128_S1x128)
    (shapeCast S1x128 a14 shapeCasts_S128_S1x128) (shapeCast S1x128 a15 shapeCasts_S128_S1x128)

end Cert.KernelIdeal.Whole

end
-- ==== Proof.KFinal.lean ====
/-
  The idealized kernel's result array as the whole function of its arguments.

  The buffer contents are followed through the four stretches. After the first host stretch the edge lengths lie as a
  column, the two filter bias vectors as rows, and the edge list's two rows as vectors. The filter kernel leaves the
  filter stage of those in its output array and touches nothing else. The second host stretch gathers, scales and
  scatter-adds (`aggregate`) and lays the interaction stage's five vectors as rows. The interaction kernel leaves the
  interaction stage of those in the result array.
-/
import proofs.«179561_j47974784696341_2_alg».proof.Proof.KRun
import proofs.«179561_j47974784696341_2_alg».proof.Proof.KValue0
import proofs.«179561_j47974784696341_2_alg».proof.Proof.KValue1
import proofs.«179561_j47974784696341_2_alg».proof.Proof.Middle

set_option maxRecDepth 16384

noncomputable section

namespace Cert.KernelIdeal.RunValue

open Idealize.ShloMosaic Idealize.ShloMosaic.TcCoe Idealize.ShloMosaic.ValueIdx Idealize.ShloMosaic.StableHlo Idealize.SL.Sem
open Cert.KernelIdeal Cert.KernelIdeal.Facts₀ Cert.KernelIdeal.Facts Cert.KernelIdeal.Gen Cert.KernelIdeal.Whole Cert.FilterConv

variable (m : (ℓ : Loc nD τ sig) → Buf (Elt Ideal) ℓ) (ρ : Dev nD → PrngReg)

/-! ## After the first host stretch -/

theorem W1_v4 (c : Dev nD) : W1 m ρ c (Proc.devRef .tc main_v4) = shapeCast S1600000x1 (m ((c : Thread nD τ).loc main_arg2)) Facts₀.shapeCasts_S1600000_S1600000x1 := by
    show StableHlo.after hostOps0 (W0 m ρ c) (Proc.devRef .tc main_v4) = _
    after_results <;> rfl
theorem W1_v5 (c : Dev nD) : W1 m ρ c (Proc.devRef .tc main_v5) = shapeCast S1x64 (m ((c : Thread nD τ).loc main_arg5)) Facts₀.shapeCasts_S64_S1x64 := by
    show StableHlo.after hostOps0 (W0 m ρ c) (Proc.devRef .tc main_v5) = _
    after_results <;> rfl
theorem W1_v6 (c : Dev nD) : W1 m ρ c (Proc.devRef .tc main_v6) = shapeCast S1x64 (m ((c : Thread nD τ).loc main_arg7)) Facts₀.shapeCasts_S64_S1x64 := by
    show StableHlo.after hostOps0 (W0 m ρ c) (Proc.devRef .tc main_v6) = _
    after_results <;> rfl
theorem W1_arg4 (c : Dev nD) : W1 m ρ c (Proc.devRef .tc main_arg4) = (m ((c : Thread nD τ).loc main_arg4)) := by
    show StableHlo.after hostOps0 (W0 m ρ c) (Proc.devRef .tc main_arg4) = _
    after_results <;> rfl
theorem W1_arg6 (c : Dev nD) : W1 m ρ c (Proc.devRef .tc main_arg6) = (m ((c : Thread nD τ).loc main_arg6)) := by
    show StableHlo.after hostOps0 (W0 m ρ c) (Proc.devRef .tc main_arg6) = _
    after_results <;> rfl

/-! ## After the filter kernel -/

/-- The filter kernel's output array holds the filter stage of the arguments. -/
theorem W2_v7 (c : Dev nD) : W2 m ρ c (Proc.devRef .tc main_v7) = (filterSum (shapeCast S1600000x1 (m ((c : Thread nD τ).loc main_arg2)) Facts₀.shapeCasts_S1600000_S1600000x1) (m ((c : Thread nD τ).loc main_arg4))
        (shapeCast S1x64 (m ((c : Thread nD τ).loc main_arg5)) Facts₀.shapeCasts_S64_S1x64) (m ((c : Thread nD τ).loc main_arg6)) (shapeCast S1x64 (m ((c : Thread nD τ).loc main_arg7)) Facts₀.shapeCasts_S64_S1x64)) := by
  refine (W2_arr m ρ c 5).trans ((RegionValue.final0 (V1 m ρ) c).trans ?_)
  show filterSum (W1 m ρ c (Proc.devRef .tc main_v4)) (W1 m ρ c (Proc.devRef .tc main_arg4)) (W1 m ρ c (Proc.devRef .tc main_v5))
    (W1 m ρ c (Proc.devRef .tc main_arg6)) (W1 m ρ c (Proc.devRef .tc main_v6)) = _
  rw [W1_v4, W1_arg4, W1_v5, W1_arg6, W1_v6]

theorem W2_v1 (c : Dev nD) : W2 m ρ c (Proc.devRef .tc main_v1) = edgeRow0 (m ((c : Thread nD τ).loc main_arg1)) :=
  (W2_of_ne m ρ c main_v1 (by decide)).trans (by
    show StableHlo.after hostOps0 (W0 m ρ c) (Proc.devRef .tc main_v1) = _
    after_results <;> rfl)
theorem W2_v3 (c : Dev nD) : W2 m ρ c (Proc.devRef .tc main_v3) = edgeRow1 (m ((c : Thread nD τ).loc main_arg1)) :=
  (W2_of_ne m ρ c main_v3 (by decide)).trans (by
    show StableHlo.after hostOps0 (W0 m ρ c) (Proc.devRef .tc main_v3) = _
    after_results <;> rfl)
theorem W2_arg0 (c : Dev nD) : W2 m ρ c (Proc.devRef .tc main_arg0) = (m ((c : Thread nD τ).loc main_arg0)) :=
  (W2_of_ne m ρ c main_arg0 (by decide)).trans (by
    show StableHlo.after hostOps0 (W0 m ρ c) (Proc.devRef .tc main_arg0) = _
    after_results <;> rfl)
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)
theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results <;> rfl)
theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results <;> rfl)
theorem W2_arg12 (c : Dev nD) : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results <;> rfl)
theorem W2_arg13 (c : Dev nD) : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results <;> rfl)
theorem W2_arg14 (c : Dev nD) : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results <;> rfl)
theorem W2_arg15 (c : Dev nD) : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    after_results <;> rfl)

/-! ## After the second host stretch -/

/-- The aggregated messages. -/
theorem W3_v19 (c : Dev nD) : W3 m ρ c (Proc.devRef .tc main_v19) = (aggregate (m ((c : Thread nD τ).loc main_arg0)) (edgeRow0 (m ((c : Thread nD τ).loc main_arg1))) (edgeRow1 (m ((c : Thread nD τ).loc main_arg1)))
      (filterSum (shapeCast S1600000x1 (m ((c : Thread nD τ).loc main_arg2)) Facts₀.shapeCasts_S1600000_S1600000x1) (m ((c : Thread nD τ).loc main_arg4))
        (shapeCast S1x64 (m ((c : Thread nD τ).loc main_arg5)) Facts₀.shapeCasts_S64_S1x64) (m ((c : Thread nD τ).loc main_arg6)) (shapeCast S1x64 (m ((c : Thread nD τ).loc main_arg7)) Facts₀.shapeCasts_S64_S1x64))) := by
  show StableHlo.after hostOps1 (W2 m ρ c) (Proc.devRef .tc main_v19) = _
  after_results_simp
  rw [W2_v1, W2_v3, W2_arg0, W2_v7]
  rfl
theorem W3_v20 (c : Dev nD) : W3 m ρ c (Proc.devRef .tc main_v20) = shapeCast S1x128 (m ((c : Thread nD τ).loc main_arg9)) Facts₀.shapeCasts_S128_S1x128 := by
  show StableHlo.after hostOps1 (W2 m ρ c) (Proc.devRef .tc main_v20) = _
  after_results
  rw [W2_arg9]
  rfl
theorem W3_v21 (c : Dev nD) : W3 m ρ c (Proc.devRef .tc main_v21) = shapeCast S1x128 (m ((c : Thread nD τ).loc main_arg11)) Facts₀.shapeCasts_S128_S1x128 := by
  show StableHlo.after hostOps1 (W2 m ρ c) (Proc.devRef .tc main_v21) = _
  after_results
  rw [W2_arg11]
  rfl
theorem W3_v22 (c : Dev nD) : W3 m ρ c (Proc.devRef .tc main_v22) = shapeCast S1x128 (m ((c : Thread nD τ).loc main_arg12)) Facts₀.shapeCasts_S128_S1x128 := by
  show StableHlo.after hostOps1 (W2 m ρ c) (Proc.devRef .tc main_v22) = _
  after_results
  rw [W2_arg12]
  rfl
theorem W3_v23 (c : Dev nD) : W3 m ρ c (Proc.devRef .tc main_v23) = shapeCast S1x128 (m ((c : Thread nD τ).loc main_arg13)) Facts₀.shapeCasts_S128_S1x128 := by
  show StableHlo.after hostOps1 (W2 m ρ c) (Proc.devRef .tc main_v23) = _
  after_results
  rw [W2_arg13]
  rfl
theorem W3_v24 (c : Dev nD) : W3 m ρ c (Proc.devRef .tc main_v24) = shapeCast S1x128 (m ((c : Thread nD τ).loc main_arg14)) Facts₀.shapeCasts_S128_S1x128 := by
  show StableHlo.after hostOps1 (W2 m ρ c) (Proc.devRef .tc main_v24) = _
  after_results
  rw [W2_arg14]
  rfl
theorem W3_v25 (c : Dev nD) : W3 m ρ c (Proc.devRef .tc main_v25) = shapeCast S1x128 (m ((c : Thread nD τ).loc main_arg15)) Facts₀.shapeCasts_S128_S1x128 := by
  show StableHlo.after hostOps1 (W2 m ρ c) (Proc.devRef .tc main_v25) = _
  after_results
  rw [W2_arg15]
  rfl
theorem W3_arg8 (c : Dev nD) : W3 m ρ c (Proc.devRef .tc main_arg8) = (m ((c : Thread nD τ).loc main_arg8)) := by
  show StableHlo.after hostOps1 (W2 m ρ c) (Proc.devRef .tc main_arg8) = _
  after_results
  rw [W2_arg8]
theorem W3_arg10 (c : Dev nD) : W3 m ρ c (Proc.devRef .tc main_arg10) = (m ((c : Thread nD τ).loc main_arg10)) := by
  show StableHlo.after hostOps1 (W2 m ρ c) (Proc.devRef .tc main_arg10) = _
  after_results
  rw [W2_arg10]

/-! ## After the interaction kernel -/

/-- The result array holds the whole function of the arguments. -/
theorem result_eq (c : Dev nD) : W4 m ρ c (Proc.devRef .tc main_v26)
    = whole (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W4_arr m ρ c 9).trans ((RegionValue1.final1 (V3 m ρ) c).trans ?_)
  show interact (W3 m ρ c (Proc.devRef .tc main_v19)) (W3 m ρ c (Proc.devRef .tc main_arg8)) (W3 m ρ c (Proc.devRef .tc main_v20)) (W3 m ρ c (Proc.devRef .tc main_arg10))
    (W3 m ρ c (Proc.devRef .tc main_v21)) (W3 m ρ c (Proc.devRef .tc main_v22)) (W3 m ρ c (Proc.devRef .tc main_v23)) (W3 m ρ c (Proc.devRef .tc main_v24))
    (W3 m ρ c (Proc.devRef .tc main_v25)) = _
  rw [W3_v19, W3_arg8, W3_v20, W3_arg10, W3_v21, W3_v22, W3_v23, W3_v24, W3_v25]
  rfl

/-- The idealized kernel's run with its result array named. -/
theorem run_whole : θ_run defs (onTc (τ := τ) (main (F := Ideal))) ⟨m, fun _ => 0, ρ⟩ (fun r => ∀ c : Dev nD,
      r.2.mem ((c.tc : Thread nD τ).loc main_v26)
        = whole (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩) (run_result m ρ)

end Cert.KernelIdeal.RunValue

end
-- ==== Proof.Consts.lean ====
/-
  The float words of the cutoff's angle.

  One side forms the angle of the cosine cutoff as the edge length times the float word nearest π/8; the other as the
  edge length times the float word nearest π, divided by 8. The first word is the second divided by 8 exactly (the same
  significand 13176795, exponents three apart), and division by 8 is the product with 1/8 on every extended real, so
  the two angles are the same extended real at every edge length, finite or not.
-/
import Idealize.ShloMosaic.PureOps.Ideal

noncomputable section

namespace Cert.FilterConv.Consts

open Idealize.ShloMosaic

/-- The word of 8.0 denotes the real 8. -/
theorem word_eight : Ideal.ofBits .f32 0x41000000#32 = ((8 : ℝ) : EReal) := by
  simp [Ideal.ofBits, Ideal.ieee, -EReal.coe_mul]; norm_num

/-- The float word nearest π denotes 13176795 / 2^22. -/
theorem word_pi : Ideal.ofBits .f32 0x40490FDB#32 = ((13176795 / 4194304 : ℝ) : EReal) := by
  simp [Ideal.ofBits, Ideal.ieee, -EReal.coe_mul]; norm_num

/-- The float word nearest π/8 denotes 13176795 / 2^25. -/
theorem word_pi8 : Ideal.ofBits .f32 0x3EC90FDB#32 = ((13176795 / 33554432 : ℝ) : EReal) := by
  simp [Ideal.ofBits, Ideal.ieee, -EReal.coe_mul]; norm_num

/-- The two spellings of the cutoff's angle agree at every extended real. -/
theorem angle (x : EReal) :
    Ideal.div (x * Ideal.ofBits .f32 0x40490FDB#32) (Ideal.ofBits .f32 0x41000000#32) = x * Ideal.ofBits .f32 0x3EC90FDB#32 := by
  rw [word_eight, Ideal.div_coe (by norm_num : (8 : ℝ) ≠ 0), word_pi, word_pi8, mul_assoc, ← EReal.coe_mul]
  norm_num

end Cert.FilterConv.Consts

end
-- ==== Proof.RefFilter.lean ====
/-
  The reference's filter stage is the whole-array filter stage.

  The reference computes, over all 1,600,000 edges at once: the scaled lengths, the hidden rows as a matrix product
  with one contracted position (a sum of one term) plus the bias row, through tanh; the filter rows as a matrix
  product plus the second bias row; the cutoff with its angle spelt length · π-word / 8; the product of every filter
  row with its edge's cutoff; and the sum along each row from the zero word. Edge by edge these are the operations of
  `filterSum`, with the edge lengths laid as a column and the two bias vectors as rows; the one law used is that the
  two spellings of the cutoff's angle agree.
-/
import proofs.«179561_j47974784696341_2_alg».proof.Proof.Gen.ReferenceIdeal.Read
import proofs.«179561_j47974784696341_2_alg».proof.Proof.LibFilterConv
import proofs.«179561_j47974784696341_2_alg».proof.Proof.LibMaskedRowMax
import proofs.«179561_j47974784696341_2_alg».proof.Proof.Consts

set_option maxRecDepth 16384

noncomputable section

namespace Cert.ReferenceIdeal.RefValue

open Idealize.ShloMosaic Idealize.ShloMosaic.ValueIdx
open Cert.ReferenceIdeal Cert.ReferenceIdeal.Read Cert.FilterConv Cert.LibTileRows Cert.LibDenseTanh Cert.LibPlainDot

/-- The reference's three products contract the left operand's axis 1 against the right operand's axis 0. -/
theorem plainR1 : Plain dot_S1600000x1_S1x64_S1600000x64_1_0_0_1_n_n := ⟨rfl, rfl, rfl, rfl, rfl, rfl⟩
theorem plainR2 : Plain dot_S1600000x64_S64x64_S1600000x64_1_0_0_1_n_n := ⟨rfl, rfl, rfl, rfl, rfl, rfl⟩
theorem plainR3 : Plain dot_S100000x128_S128x128_S100000x128_1_0_0_1_n_n := ⟨rfl, rfl, rfl, rfl, rfl, rfl⟩

/-- The reference's cutoff at an edge is the cutoff of the edge's length. -/
theorem cut_ref (x2 : (⟨S1600000, .f32⟩ : BufTy).Contents (Elt Ideal)) (e : Fin 1600000) :
    val_main_v29 (F := Ideal) x2 (ix1 e) = cutoff (x2 (ix1 e)) := by
  show Scalar.select (FloatOps.cmpf (F := Ideal) (φ := .f32) .ole (x2 (ix1 e)) (Ideal.ofBits .f32 0x41000000#32))
      (Ideal.ofBits .f32 0x3F000000#32 * (Ideal.cos (Ideal.div (x2 (ix1 e) * Ideal.ofBits .f32 0x40490FDB#32) (Ideal.ofBits .f32 0x41000000#32)) + Ideal.ofBits .f32 0x3F800000#32))
      (Ideal.ofBits .f32 0x00000000#32) = _
  rw [Consts.angle]
  rfl

/-- The reference's hidden rows are the hidden rows of the filter stage. -/
theorem hidden_ref (x2 : (⟨S1600000, .f32⟩ : BufTy).Contents (Elt Ideal)) (x4 : (⟨S1x64, .f32⟩ : BufTy).Contents (Elt Ideal)) (x5 : (⟨S64, .f32⟩ : BufTy).Contents (Elt Ideal))
    (h0 : S1600000.ShapeCasts S1600000x1) (h1 : S64.ShapeCasts S1x64) :
    val_main_v13 (F := Ideal) x2 x4 x5 = hidden (shapeCast S1600000x1 x2 h0) x4 (shapeCast S1x64 x5 h1) := by
  unfold val_main_v13 val_main_v12 val_main_v9 val_main_v11 val_main_v10
  rw [← denseTanh_eq_host _ plainR1 h1 _ _ (val_main_v8 (F := Ideal) x2) x4 x5]
  funext i
  obtain ⟨e, a, rfl⟩ : ∃ (e : Fin 1600000) (a : Fin 64), i = ix2 e a := ⟨i 0, i 1, eq_ix2 i⟩
  show Ideal.tanh ((∑ k : Fin 1, val_main_v8 (F := Ideal) x2 (ix2 e k) * x4 (ix2 k a)) + shapeCast S1x64 x5 h1 (ix2 (0 : Fin 1) a))
     = Ideal.tanh (scaleDist (shapeCast S1600000x1 x2 h0 (ix2 e (0 : Fin 1))) * x4 (ix2 (0 : Fin 1) a) + shapeCast S1x64 x5 h1 (ix2 (0 : Fin 1) a))
  have hi8 : idx_main_v8 (ix2 e (0 : Fin 1)) = ix1 e := funext fun a => by match a with | ⟨0, _⟩ => rfl
  rw [Fin.sum_univ_one, Cert.MaskedRowMax.shapeCast_a_a1_apply x2 h0 e 0, val_main_v8_apply, hi8]
  rfl

/-- The reference's filter sums are the whole-array filter stage. -/
theorem filter_ref (x2 : (⟨S1600000, .f32⟩ : BufTy).Contents (Elt Ideal)) (x4 : (⟨S1x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (h0 : S1600000.ShapeCasts S1600000x1) (h1 : S64.ShapeCasts S1x64) :
    val_main_v34 (F := Ideal) x2 x4 x5 x6 x7
      = filterSum (shapeCast S1600000x1 x2 h0) x4 (shapeCast S1x64 x5 h1) x6 (shapeCast S1x64 x7 h1) := by
  have hF : val_main_v17 (F := Ideal) x2 x4 x5 x6 x7
      = dense (hidden (shapeCast S1600000x1 x2 h0) x4 (shapeCast S1x64 x5 h1)) x6 (shapeCast S1x64 x7 h1) := by
    rw [← hidden_ref x2 x4 x5 h0 h1]
    unfold val_main_v17 val_main_v14 val_main_v16 val_main_v15
    exact (dense_eq_host _ plainR2 h1 _ _ _ x6 x7).symm
  funext i
  obtain ⟨e, c0, rfl⟩ : ∃ (e : Fin 1600000) (c0 : Fin 1), i = ix2 e c0 := ⟨i 0, i 1, eq_ix2 i⟩
  rw [val_main_v34_apply]
  have hi : idx_main_v34 (ix2 e c0) = ix1 e := funext fun a => by match a with | ⟨0, _⟩ => rfl
  rw [hi]
  unfold val_main_v33 val_main_cst_7
  rw [Cert.MaskedRowMax.hostReduceAdd_last _ _ (by decide) _ e]
  show _ = ∑ c : Fin 64, filtered (shapeCast S1600000x1 x2 h0) x4 (shapeCast S1x64 x5 h1) x6 (shapeCast S1x64 x7 h1) (ix2 e c)
  refine Finset.sum_congr rfl fun c _ => ?_
  show val_main_v17 (F := Ideal) x2 x4 x5 x6 x7 (ix2 e c) * val_main_v31 (F := Ideal) x2 (ix2 e c)
    = dense (hidden (shapeCast S1600000x1 x2 h0) x4 (shapeCast S1x64 x5 h1)) x6 (shapeCast S1x64 x7 h1) (ix2 e c)
      * cutoff (shapeCast S1600000x1 x2 h0 (ix2 e (0 : Fin 1)))
  rw [hF, Cert.MaskedRowMax.shapeCast_a_a1_apply x2 h0 e 0, ← cut_ref x2 e, val_main_v31_apply, val_main_v30_apply]
  exact congrArg _ (congrArg (val_main_v29 (F := Ideal) x2) (funext fun a => by match a with | ⟨0, _⟩ => rfl))

end Cert.ReferenceIdeal.RefValue

end
-- ==== Proof.RefInteract.lean ====
/-
  The reference's interaction stage and message passing, and the reference's result as the whole function.

  After the filter sums the reference gathers, scales and scatter-adds with the same host operations as the other
  program (`aggregate`, compared as a whole and never opened), then applies over all 100,000 nodes at once a dense
  layer, the soft rectifier (its negation spelt −y where the kernel spells it 0 − y: the same extended real), a second
  dense layer and the normalisation, each vector of 128 entries broadcast first to a row and then over the rows. Entry
  by entry these are the operations of `interact` with the vectors laid as rows.
-/
import proofs.«179561_j47974784696341_2_alg».proof.Proof.RefFilter
import proofs.«179561_j47974784696341_2_alg».proof.Proof.Middle
import proofs.«179561_j47974784696341_2_alg».proof.Proof.LibRowOfVector

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.FilterConv Cert.LibTileRows Cert.LibDenseTanh Cert.LibPlainDot

/-- The negation of an extended real is the zero word minus it. -/
theorem neg_eq_zero_word_sub (y : EReal) : -y = Ideal.ofBits .f32 0x00000000#32 - y := by
  rw [Ideal.ofBits_zero_f32, zero_sub]

/-- The host's spelling of the soft rectifier is the same function of an extended real. -/
theorem softplus_host (y : EReal) :
    Scalar.select
      (FloatOps.cmpf (F := Ideal) (φ := .f32) .une
        (FloatOps.subf (F := Ideal) (φ := .f32) y (FloatOps.ofBits (F := Ideal) .f32 0x00000000#32))
        (FloatOps.subf (F := Ideal) (φ := .f32) y (FloatOps.ofBits (F := Ideal) .f32 0x00000000#32)))
      (FloatOps.addf (F := Ideal) (φ := .f32) y (FloatOps.ofBits (F := Ideal) .f32 0x00000000#32))
      (FloatOps.addf (F := Ideal) (φ := .f32)
        (FloatOps.maximumf (F := Ideal) (φ := .f32) y (FloatOps.ofBits (F := Ideal) .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) y (FloatOps.ofBits (F := Ideal) .f32 0x00000000#32)))))))
      = softplus y := by
  unfold softplus
  rw [Ideal.hostUnary_log1p_def, Ideal.hostUnary_exp_def, Ideal.hostNegf_def, Ideal.hostAbsf_def, Ideal.negf_def,
    neg_eq_zero_word_sub]
  rfl

/-- A vector laid as a row reads its entry q at (0, q). -/
theorem row_read (b : (⟨S128, .f32⟩ : BufTy).Contents (Elt Ideal)) (h : S128.ShapeCasts S1x128) (q : Fin 128) :
    shapeCast S1x128 b h (ix2 (0 : Fin 1) q) = b (ix1 q) :=
  shapeCast_apply b h _ _ (by
    rw [Shape.rowMajor_val_two, Shape.rowMajor_val_one]
    show q.val = 0 * 128 + q.val
    omega)

/-- A vector broadcast to a row and then over the rows reads, at (r, q), the vector laid as a row at (0, q). -/
theorem row_bcast (b : (⟨S128, .f32⟩ : BufTy).Contents (Elt Ideal)) (h : S128.ShapeCasts S1x128) (r : Fin 100000) (q : Fin 128) :
    broadcastInDim S100000x128 ![0, 1] bcast_S1x128_S100000x128_0_1 (broadcastInDim S1x128 ![1] bcast_S128_S1x128_1 b) (ix2 r q)
      = shapeCast S1x128 b h (ix2 (0 : Fin 1) q) := by
  rw [← Cert.LibRowOfVector.reshape_eq_broadcast b h bcast_S128_S1x128_1,
    broadcastInDim_apply ![0, 1] bcast_S1x128_S100000x128_0_1 (shapeCast S1x128 b h) (ix2 r q) (ix2 (0 : Fin 1) q) ?_]
  intro a
  match a with
  | ⟨0, _⟩ => rfl
  | ⟨1, _⟩ =>
    show q.val = if (128 : Nat) = 1 then 0 else q.val
    rw [if_neg (by decide)]

/-- The reference's message passing is `aggregate` of its filter sums. -/
theorem agg_ref (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v46 (F := Ideal) x0 x1 x2 x4 x5 x6 x7
      = Cert.KernelIdeal.Whole.aggregate x0 (Cert.KernelIdeal.Whole.edgeRow0 x1) (Cert.KernelIdeal.Whole.edgeRow1 x1)
          (val_main_v34 (F := Ideal) x2 x4 x5 x6 x7) := by
  unfold val_main_v46 val_main_v44 val_main_v45 val_main_v43 val_main_v41 val_main_v42 val_main_v40 val_main_v39 val_main_v38
    val_main_v37 val_main_v36 val_main_v35 val_main_cst_9 val_main_c val_main_c_8 val_main_v1 val_main_v0 val_main_v3 val_main_v2
    Cert.KernelIdeal.Whole.aggregate Cert.KernelIdeal.Whole.edgeRow0 Cert.KernelIdeal.Whole.edgeRow1
  generalize val_main_v34 (F := Ideal) x2 x4 x5 x6 x7 = fs
  rfl

set_option maxHeartbeats 400000 in
/-- The reference's last stages are the interaction stage of its aggregated messages. -/
theorem interact_ref (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal))
    (x11 x12 x13 x14 x15 : (⟨S128, .f32⟩ : BufTy).Contents (Elt Ideal)) (h : S128.ShapeCasts S1x128) :
    val_main_v70 (F := Ideal) x0 x1 x2 x4 x5 x6 x7 x8 x9 x10 x11 x12 x13 x14 x15
      = interact (val_main_v46 (F := Ideal) x0 x1 x2 x4 x5 x6 x7) x8 (shapeCast S1x128 x9 h) x10 (shapeCast S1x128 x11 h) (shapeCast S1x128 x12 h)
          (shapeCast S1x128 x13 h) (shapeCast S1x128 x14 h) (shapeCast S1x128 x15 h) := by
  have h50 : val_main_v50 (F := Ideal) x0 x1 x2 x4 x5 x6 x7 x8 x9 = dense (val_main_v46 (F := Ideal) x0 x1 x2 x4 x5 x6 x7) x8 (shapeCast S1x128 x9 h) := by
    unfold val_main_v50 val_main_v47 val_main_v49 val_main_v48
    exact (dense_eq_host _ plainR3 h _ _ _ x8 x9).symm
  have h51 : val_main_v51 (F := Ideal) x0 x1 x2 x4 x5 x6 x7 x8 x9 = softDense (val_main_v46 (F := Ideal) x0 x1 x2 x4 x5 x6 x7) x8 (shapeCast S1x128 x9 h) := by
    funext i
    unfold softDense
    rw [← h50, val_main_v51_apply, val_main_call1_v4_apply, val_main_call1_v6_apply, val_main_call1_v11_apply, val_main_call1_v1_apply,
      val_main_call1_v10_apply, val_main_call1_v9_apply, val_main_call1_v8_apply, val_main_call1_v7_apply, val_main_call1_v3_apply]
    generalize val_main_v50 (F := Ideal) x0 x1 x2 x4 x5 x6 x7 x8 x9 i = y
    exact softplus_host y
  have h55 : val_main_v55 (F := Ideal) x0 x1 x2 x4 x5 x6 x7 x8 x9 x10 x11
      = dense (softDense (val_main_v46 (F := Ideal) x0 x1 x2 x4 x5 x6 x7) x8 (shapeCast S1x128 x9 h)) x10 (shapeCast S1x128 x11 h) := by
    rw [← h51]
    unfold val_main_v55 val_main_v52 val_main_v54 val_main_v53
    exact (dense_eq_host _ plainR3 h _ _ _ x10 x11).symm
  funext i
  obtain ⟨r, q, rfl⟩ : ∃ (r : Fin 100000) (q : Fin 128), i = ix2 r q := ⟨i 0, i 1, eq_ix2 i⟩
  have eG : val_main_v60 (F := Ideal) x12 (ix2 r q) = shapeCast S1x128 x12 h (ix2 (0 : Fin 1) q) := row_bcast x12 h r q
  have eMu : val_main_v57 (F := Ideal) x14 (ix2 r q) = shapeCast S1x128 x14 h (ix2 (0 : Fin 1) q) := row_bcast x14 h r q
  have eB : val_main_v69 (F := Ideal) x13 (ix2 r q) = shapeCast S1x128 x13 h (ix2 (0 : Fin 1) q) := row_bcast x13 h r q
  have eR : val_main_v66 (F := Ideal) x15 (ix2 r q)
      = FloatOps.rsqrt (F := Ideal) (φ := .f32) (FloatOps.addf (F := Ideal) (φ := .f32) (shapeCast S1x128 x15 h (ix2 (0 : Fin 1) q))
          (FloatOps.ofBits (F := Ideal) .f32 0x3A83126F#32)) :=
    (row_bcast (val_main_v64 (F := Ideal) x15) h r q).trans ((row_read (val_main_v64 (F := Ideal) x15) h q).trans
      (congrArg (fun y => FloatOps.rsqrt (F := Ideal) (φ := .f32) (FloatOps.addf (F := Ideal) (φ := .f32) y
        (FloatOps.ofBits (F := Ideal) .f32 0x3A83126F#32))) (row_read x15 h q).symm))
  rw [val_main_v70_apply, val_main_v67_apply, val_main_v61_apply, val_main_v58_apply, eG, eMu, eB, eR, congrFun h55 (ix2 r q)]
  rfl

set_option maxHeartbeats 400000 in
/-- The reference's result is the whole function of its arguments. -/
theorem ref_whole (x0 : (⟨S100000x128, .f32⟩ : BufTy).Contents (Elt Ideal)) (x1 : (⟨S2x1600000, .i32⟩ : BufTy).Contents (Elt Ideal)) (x2 : (⟨S1600000, .f32⟩ : BufTy).Contents (Elt Ideal))
    (x4 : (⟨S1x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal))
    (x11 x12 x13 x14 x15 : (⟨S128, .f32⟩ : BufTy).Contents (Elt Ideal)) :
    val_main_v70 (F := Ideal) x0 x1 x2 x4 x5 x6 x7 x8 x9 x10 x11 x12 x13 x14 x15 = Cert.KernelIdeal.Whole.whole x0 x1 x2 x4 x5 x6 x7 x8 x9 x10 x11 x12 x13 x14 x15 := by
  rw [interact_ref x0 x1 x2 x4 x5 x6 x7 x8 x9 x10 x11 x12 x13 x14 x15 Cert.KernelIdeal.Facts₀.shapeCasts_S128_S1x128, agg_ref,
    filter_ref x2 x4 x5 x6 x7 Cert.KernelIdeal.Facts₀.shapeCasts_S1600000_S1600000x1 Cert.KernelIdeal.Facts₀.shapeCasts_S64_S1x64]
  rfl

end Cert.ReferenceIdeal.RefValue

end
-- ==== Proof.lean ====
/-
  Kernel against reference for a continuous-filter graph convolution, on the extended reals.

  Both programs compute, from node features, an edge list, edge lengths and the weights of two small networks: a
  filter sum per edge (two dense layers on the scaled edge length, a cosine cutoff, a sum over the filters), the
  messages (each edge's source row scaled by its filter sum) added into their target nodes, and an interaction stage
  (dense layer, soft rectifier, dense layer, a normalisation with stored statistics). The kernel program runs the two
  dense stages as tiled kernels over the edges and over the nodes, with the gather and scatter-add between them on the
  host; the reference runs everything on the host. On the extended reals a change of float format is the identity and a
  tiled product is the product, so both results are one function `whole` of the arguments: for the kernel by reading
  what each launch leaves in its output array tile by tile, for the reference operation by operation. The only law of
  the extended reals that is used is that the cutoff's angle d · (π-word/8) equals (d · π-word)/8, which holds at every
  extended real, so the precondition is never opened. The word-level program's frame and the two idealized programs'
  frames are their generated runs; the idealization rewrote nothing, so there is nothing to preserve.
-/
import proofs.«179561_j47974784696341_2_alg».proof.Defs
import proofs.«179561_j47974784696341_2_alg».proof.Proof.Gen.Kernel
import proofs.«179561_j47974784696341_2_alg».proof.Proof.Gen.Kernel.Skeleton
import proofs.«179561_j47974784696341_2_alg».proof.Proof.Gen.Kernel.Launch
import proofs.«179561_j47974784696341_2_alg».proof.Proof.Gen.Kernel.Points
import proofs.«179561_j47974784696341_2_alg».proof.Proof.Gen.Kernel.Frame
import proofs.«179561_j47974784696341_2_alg».proof.Proof.Gen.KernelIdeal
import proofs.«179561_j47974784696341_2_alg».proof.Proof.Gen.KernelIdeal.Skeleton
import proofs.«179561_j47974784696341_2_alg».proof.Proof.Gen.KernelIdeal.Launch
import proofs.«179561_j47974784696341_2_alg».proof.Proof.Gen.KernelIdeal.Points
import proofs.«179561_j47974784696341_2_alg».proof.Proof.Gen.KernelIdeal.Frame
import proofs.«179561_j47974784696341_2_alg».proof.Proof.Gen.ReferenceIdeal
import proofs.«179561_j47974784696341_2_alg».proof.Proof.Gen.ReferenceIdeal.Run
import proofs.«179561_j47974784696341_2_alg».proof.Proof.Gen.ReferenceIdeal.Read
import proofs.«179561_j47974784696341_2_alg».proof.Proof.Gen.Pre_finite_inputs
import proofs.«179561_j47974784696341_2_alg».proof.Proof.KFinal
import proofs.«179561_j47974784696341_2_alg».proof.Proof.RefInteract
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the whole function of the arguments. -/
theorem algebraic : Cert.algebraic_KernelIdeal_ReferenceIdeal := by
  intro m ρ m' ρ' _ hagree
  refine ⟨fun c => Cert.KernelIdeal.Whole.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.RunValue.run_whole m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v70_eq, Cert.ReferenceIdeal.RefValue.ref_whole,
    a0, a1, a2, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
